-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4x512x768 : Shape := ⟨4, ![8, 4, 512, 768]⟩
abbrev S2304x768 : Shape := ⟨2, ![2304, 768]⟩
abbrev S768x768 : Shape := ⟨2, ![768, 768]⟩
abbrev S768 : Shape := ⟨1, ![768]⟩
abbrev S_ : Shape := ⟨0, ![]⟩

class Facts : Prop where
  bcast_S_S8x4x512x768 : S_.BroadcastsInDim S8x4x512x768 (![] : Fin 0 → Fin S8x4x512x768.rank)
  reducesTo_S8x4x512x768_S_d0_1_2_3 : S8x4x512x768.ReducesTo [0, 1, 2, 3] S_
  h_S_ : 0 < S_.numel
  bcast_S_S2304x768 : S_.BroadcastsInDim S2304x768 (![] : Fin 0 → Fin S2304x768.rank)
  reducesTo_S2304x768_S_d0_1 : S2304x768.ReducesTo [0, 1] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  main_v18

def fn {F : FTy → Type} [FloatOps F] (main_arg0 : FVec F S8x4x512x768 .f32) (main_arg1 : FVec F S2304x768 .f32) (main_arg2 : FVec F S768x768 .f32) (main_arg3 : FVec F S768 .f32) : IVec S_ 1 :=
  let main_v0 : FVec F S8x4x512x768 .f32 := Host.absf main_arg0
  let main_cst : FVec F S_ .f32 := constant S_ .f32 0x7F800000#32
  let main_v1 : FVec F S8x4x512x768 .f32 := broadcastInDim S8x4x512x768 ![] bcast_S_S8x4x512x768 main_cst
  let main_v2 : IVec S8x4x512x768 1 := cmpf .olt main_v0 main_v1
  let main_c : IVec S_ 1 := constantI S_ 1 1#1
  let main_v3 : IVec S_ 1 := (fun x v => Host.reduce IntOp.andi x v reducesTo_S8x4x512x768_S_d0_1_2_3 h_S_) main_v2 main_c
  let main_v4 : FVec F S2304x768 .f32 := Host.absf main_arg1
  let main_cst_0 : FVec F S_ .f32 := constant S_ .f32 0x7F800000#32
  let main_v5 : FVec F S2304x768 .f32 := broadcastInDim S2304x768 ![] bcast_S_S2304x768 main_cst_0
  let main_v6 : IVec S2304x768 1 := cmpf .olt main_v4 main_v5
  let main_c_1 : IVec S_ 1 := constantI S_ 1 1#1
  let main_v7 : IVec S_ 1 := (fun x v => Host.reduce IntOp.andi x v reducesTo_S2304x768_S_d0_1 h_S_) main_v6 main_c_1
  let main_v8 : IVec S_ 1 := andi main_v3 main_v7
  let main_v9 : FVec F S768x768 .f32 := Host.absf main_arg2
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_v13 main_v16
-- ==== Kernel.lean ====
abbrev S8x4x512x768 : Shape := ⟨4, ![8, 4, 512, 768]⟩
abbrev S2304x768 : Shape := ⟨2, ![2304, 768]⟩
abbrev S768x768 : Shape := ⟨2, ![768, 768]⟩
abbrev S768 : Shape := ⟨1, ![768]⟩
abbrev S1x1x512x768 : Shape := ⟨4, ![1, 1, 512, 768]⟩
abbrev S768x512 : Shape := ⟨2, ![768, 512]⟩
abbrev S512x768 : Shape := ⟨2, ![512, 768]⟩
abbrev S2304x512 : Shape := ⟨2, ![2304, 512]⟩
abbrev S64x512 : Shape := ⟨2, ![64, 512]⟩
abbrev S512x512 : Shape := ⟨2, ![512, 512]⟩
abbrev S512 : Shape := ⟨1, ![512]⟩
abbrev S512x1 : Shape := ⟨2, ![512, 1]⟩
abbrev S1x768 : Shape := ⟨2, ![1, 768]⟩

abbrev nBuf : Space → Nat
  | .hbm => 8
  | .vmem => 8
  | .smem => 0
  | _ => 0

abbrev bufTy : (tb : Table) → Fin (tcTables nBuf tb) → BufTy
  | .hbm, ⟨0, _⟩ => ⟨S8x4x512x768, .f32⟩
  | .hbm, ⟨1, _⟩ => ⟨S2304x768, .f32⟩
  | .hbm, ⟨2, _⟩ => ⟨S768x768, .f32⟩
  | .hbm, ⟨3, _⟩ => ⟨S768, .f32⟩
  | .hbm, ⟨4, _⟩ => ⟨S8x4x512x768, .bf16⟩
  | .hbm, ⟨5, _⟩ => ⟨S2304x768, .bf16⟩
  | .hbm, ⟨6, _⟩ => ⟨S768x768, .bf16⟩
  | .hbm, ⟨7, _⟩ => ⟨S8x4x512x768, .f32⟩
  | .local _ .vmem, ⟨0, _⟩ => ⟨S1x1x512x768, .bf16⟩
  | .local _ .vmem, ⟨1, _⟩ => ⟨S1x1x512x768, .bf16⟩
  | .local _ .vmem, ⟨2, _⟩ => ⟨S2304x768, .bf16⟩
  | .local _ .vmem, ⟨3, _⟩ => ⟨S768x768, .bf16⟩
  | .local _ .vmem, ⟨4, _⟩ => ⟨S768, .f32⟩
  | .local _ .vmem, ⟨5, _⟩ => ⟨S1x1x512x768, .f32⟩
  | .local _ .vmem, ⟨6, _⟩ => ⟨S1x1x512x768, .f32⟩
  | .local _ .vmem, ⟨7, _⟩ => ⟨S768x512, .bf16⟩
  | _, _ => ⟨S8x4x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2304x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S768x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  inb_S1x1x512x768_S1x1x512x768_0_0_0_0 : ∀ a, (![0, 0, 0, 0] : Fin 4 → Nat) a + S1x1x512x768.size a ≤ S1x1x512x768.size a
  h_S1x1x512x768 : 0 < S1x1x512x768.numel
  shapeCasts_S1x1x512x768_S512x768 : S1x1x512x768.ShapeCasts S512x768
  inb_S2304x768_S2304x768_0_0 : ∀ a, (![0, 0] : Fin 2 → Nat) a + S2304x768.size a ≤ S2304x768.size a
  h_S2304x768 : 0 < S2304x768.numel
  shapeCasts_S2304x768_S2304x768 : S2304x768.ShapeCasts S2304x768
  slices_S2304x512_o0_0_S64x512 : S2304x512.Slices ![0, 0] S64x512
  slices_S2304x512_o768_0_S64x512 : S2304x512.Slices ![768, 0] S64x512
  slices_S2304x512_o1536_0_S64x512 : S2304x512.Slices ![1536, 0] S64x512
  reduces_S512x512_S512 : S512x512.Reduces [1] S512
  shapeCasts_S512_S512x1 : S512.ShapeCasts S512x1
  broadcasts_S512x1_S512x512 : S512x1.Broadcasts S512x512
  inb_S768x512_S64x512_0_0 : ∀ a, (![0, 0] : Fin 2 → Nat) a + S64x512.size a ≤ S768x512.size a
  h_S64x512 : 0 < S64x512.numel
  shapeCasts_S64x512_S64x512 : S64x512.ShapeCasts S64x512
  packedbf16_S768x512_S64x512_0_0 : (Rect.unit (s := S768x512) ![0, 0] S64x512.size inb_S768x512_S64x512_0_0).PackedRows (EltTy.packing .bf16)
  slices_S2304x512_o64_0_S64x512 : S2304x512.Slices ![64, 0] S64x512
  slices_S2304x512_o832_0_S64x512 : S2304x512.Slices ![832, 0] S64x512
  slices_S2304x512_o1600_0_S64x512 : S2304x512.Slices ![1600, 0] S64x512
  inb_S768x512_S64x512_64_0 : ∀ a, (![64, 0] : Fin 2 → Nat) a + S64x512.size a ≤ S768x512.size a
  packedbf16_S768x512_S64x512_64_0 : (Rect.unit (s := S768x512) ![64, 0] S64x512.size inb_S768x512_S64x512_64_0).PackedRows (EltTy.packing .bf16)
  slices_S2304x512_o128_0_S64x512 : S2304x512.Slices ![128, 0] S64x512
  slices_S2304x512_o896_0_S64x512 : S2304x512.Slices ![896, 0] S64x512
  slices_S2304x512_o1664_0_S64x512 : S2304x512.Slices ![1664, 0] S64x512
  inb_S768x512_S64x512_128_0 : ∀ a, (![128, 0] : Fin 2 → Nat) a + S64x512.size a ≤ S768x512.size a
  packedbf16_S768x512_S64x512_128_0 : (Rect.unit (s := S768x512) ![128, 0] S64x512.size inb_S768x512_S64x512_128_0).PackedRows (EltTy.packing .bf16)
  slices_S2304x512_o192_0_S64x512 : S2304x512.Slices ![192, 0] S64x512
  slices_S2304x512_o960_0_S64x512 : S2304x512.Slices ![960, 0] S64x512
  slices_S2304x512_o1728_0_S64x512 : S2304x512.Slices ![1728, 0] S64x512
  inb_S768x512_S64x512_192_0 : ∀ a, (![192, 0] : Fin 2 → Nat) a + S64x512.size a ≤ S768x512.size a
  packedbf16_S768x512_S64x512_192_0 : (Rect.unit (s := S768x512) ![192, 0] S64x512.size inb_S768x512_S64x512_192_0).PackedRows (EltTy.packing .bf16)
  slices_S2304x512_o256_0_S64x512 : S2304x512.Slices ![256, 0] S64x512
  slices_S2304x512_o1024_0_S64x512 : S2304x512.Slices ![1024, 0] S64x512
  slices_S2304x512_o1792_0_S64x512 : S2304x512.Slices ![1792, 0] S64x512
  inb_S768x512_S64x512_256_0 : ∀ a, (![256, 0] : Fin 2 → Nat) a + S64x512.size a ≤ S768x512.size a
  packedbf16_S768x512_S64x512_256_0 : (Rect.unit (s := S768x512) ![256, 0] S64x512.size inb_S768x512_S64x512_256_0).PackedRows (EltTy.packing .bf16)
  slices_S2304x512_o320_0_S64x512 : S2304x512.Slices ![320, 0] S64x512
  slices_S2304x512_o1088_0_S64x512 : S2304x512.Slices ![1088, 0] S64x512
  slices_S2304x512_o1856_0_S64x512 : S2304x512.Slices ![1856, 0] S64x512
  inb_S768x512_S64x512_320_0 : ∀ a, (![320, 0] : Fin 2 → Nat) a + S64x512.size a ≤ S768x512.size a
  packedbf16_S768x512_S64x512_320_0 : (Rect.unit (s := S768x512) ![320, 0] S64x512.size inb_S768x512_S64x512_320_0).PackedRows (EltTy.packing .bf16)
  slices_S2304x512_o384_0_S64x512 : S2304x512.Slices ![384, 0] S64x512
  slices_S2304x512_o1152_0_S64x512 : S2304x512.Slices ![1152, 0] S64x512
  slices_S2304x512_o1920_0_S64x512 : S2304x512.Slices ![1920, 0] S64x512
  inb_S768x512_S64x512_384_0 : ∀ a, (![384, 0] : Fin 2 → Nat) a + S64x512.size a ≤ S768x512.size a
  packedbf16_S768x512_S64x512_384_0 : (Rect.unit (s := S768x512) ![384, 0] S64x512.size inb_S768x512_S64x512_384_0).PackedRows (EltTy.packing .bf16)
  slices_S2304x512_o448_0_S64x512 : S2304x512.Slices ![448, 0] S64x512
  slices_S2304x512_o1216_0_S64x512 : S2304x512.Slices ![1216, 0] S64x512
  slices_S2304x512_o1984_0_S64x512 : S2304x512.Slices ![1984, 0] S64x512
  inb_S768x512_S64x512_448_0 : ∀ a, (![448, 0] : Fin 2 → Nat) a + S64x512.size a ≤ S768x512.size a
  packedbf16_S768x512_S64x512_448_0 : (Rect.unit (s := S768x512) ![448, 0] S64x512.size inb_S768x512_S64x512_448_0).PackedRows (EltTy.packing .bf16)
  slices_S2304x512_o512_0_S64x512 : S2304x512.Slices ![512, 0] S64x512
  slices_S2304x512_o1280_0_S64x512 : S2304x512.Slices ![1280, 0] S64x512
  slices_S2304x512_o2048_0_S64x512 : S2304x512.Slices ![2048, 0] S64x512
  inb_S768x512_S64x512_512_0 : ∀ a, (![512, 0] : Fin 2 → Nat) a + S64x512.size a ≤ S768x512.size a
  packedbf16_S768x512_S64x512_512_0 : (Rect.unit (s := S768x512) ![512, 0] S64x512.size inb_S768x512_S64x512_512_0).PackedRows (EltTy.packing .bf16)
  slices_S2304x512_o576_0_S64x512 : S2304x512.Slices ![576, 0] S64x512
  slices_S2304x512_o1344_0_S64x512 : S2304x512.Slices ![1344, 0] S64x512
  slices_S2304x512_o2112_0_S64x512 : S2304x512.Slices ![2112, 0] S64x512
  inb_S768x512_S64x512_576_0 : ∀ a, (![576, 0] : Fin 2 → Nat) a + S64x512.size a ≤ S768x512.size a
  packedbf16_S768x512_S64x512_576_0 : (Rect.unit (s := S768x512) ![576, 0] S64x512.size inb_S768x512_S64x512_576_0).PackedRows (EltTy.packing .bf16)
  slices_S2304x512_o640_0_S64x512 : S2304x512.Slices ![640, 0] S64x512
  slices_S2304x512_o1408_0_S64x512 : S2304x512.Slices ![1408, 0] S64x512
  slices_S2304x512_o2176_0_S64x512 : S2304x512.Slices ![2176, 0] S64x512
  inb_S768x512_S64x512_640_0 : ∀ a, (![640, 0] : Fin 2 → Nat) a + S64x512.size a ≤ S768x512.size a
  packedbf16_S768x512_S64x512_640_0 : (Rect.unit (s := S768x512) ![640, 0] S64x512.size inb_S768x512_S64x512_640_0).PackedRows (EltTy.packing .bf16)
  slices_S2304x512_o704_0_S64x512 : S2304x512.Slices ![704, 0] S64x512
  slices_S2304x512_o1472_0_S64x512 : S2304x512.Slices ![1472, 0] S64x512
  slices_S2304x512_o2240_0_S64x512 : S2304x512.Slices ![2240, 0] S64x512
  inb_S768x512_S64x512_704_0 : ∀ a, (![704, 0] : Fin 2 → Nat) a + S64x512.size a ≤ S768x512.size a
  packedbf16_S768x512_S64x512_704_0 : (Rect.unit (s := S768x512) ![704, 0] S64x512.size inb_S768x512_S64x512_704_0).PackedRows (EltTy.packing .bf16)
  inb_S768x512_S768x512_0_0 : ∀ a, (![0, 0] : Fin 2 → Nat) a + S768x512.size a ≤ S768x512.size a
  h_S768x512 : 0 < S768x512.numel
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S768_S768_0 : ∀ a, (![0] : Fin 1 → Nat) a + S768.size a ≤ S768.size a
  h_S768 : 0 < S768.numel
  shapeCasts_S768_S1x768 : S768.ShapeCasts S1x768
  broadcasts_S1x768_S512x768 : S1x768.Broadcasts S512x768
  shapeCasts_S512x768_S1x1x512x768 : S512x768.ShapeCasts S1x1x512x768
  dot_S2304x768_S512x768_S2304x512_1_1_0_0_n_n_wf : DotDims.WF S2304x768 S512x768 S2304x512 [1] [1] [0] [0] [] []
  dot_S64x512_S64x512_S512x512_0_0_1_1_n_n_wf : DotDims.WF S64x512 S64x512 S512x512 [0] [0] [1] [1] [] []
  dot_S64x512_S512x512_S64x512_1_1_0_0_n_n_wf : DotDims.WF S64x512 S512x512 S64x512 [1] [1] [0] [0] [] []
  dot_S768x512_S768x768_S512x768_0_1_1_0_n_n_wf : DotDims.WF S768x512 S768x768 S512x768 [0] [1] [1] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x768.size a ≤ S8x4x512x768.size a
  hwx0_0 : ∀ i : grid0.Coords, EltTy.bits .bf16 = 32 ∨ (Rect.block (s := S8x4x512x768) S1x1x512x768.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2304x768.size a ≤ S2304x768.size a
  hwx0_1 : ∀ i : grid0.Coords, EltTy.bits .bf16 = 32 ∨ (Rect.block (s := S2304x768) S2304x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x768.size a ≤ S768x768.size a
  hwx0_2 : ∀ i : grid0.Coords, EltTy.bits .bf16 = 32 ∨ (Rect.block (s := S768x768) S768x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768.size a ≤ S768.size a
  hwx0_3 : ∀ i : grid0.Coords, EltTy.bits .f32 = 32 ∨ (Rect.block (s := S768) S768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x768.size a ≤ S8x4x512x768.size a
  hwx0_4 : ∀ i : grid0.Coords, EltTy.bits .f32 = 32 ∨ (Rect.block (s := S8x4x512x768) S1x1x512x768.size (cc0_transform_4 i) (hinb0_4 i)).WholeWords (EltTy.packing .f32)

variable [Facts₀]

def dot_S2304x768_S512x768_S2304x512_1_1_0_0_n_n : DotDims S2304x768 S512x768 S2304x512 where
  lhsContracting := [1]
  rhsContracting := [1]
  lhsNonContracting := [0]
  rhsNonContracting := [0]
  lhsBatch := []
  rhsBatch := []
  wf := dot_S2304x768_S512x768_S2304x512_1_1_0_0_n_n_wf
def dot_S64x512_S64x512_S512x512_0_0_1_1_n_n : DotDims S64x512 S64x512 S512x512 where
  lhsContracting := [0]
  rhsContracting := [0]
  lhsNonContracting := [1]
  rhsNonContracting := [1]
  lhsBatch := []
  rhsBatch := []
  wf := dot_S64x512_S64x512_S512x512_0_0_1_1_n_n_wf
def dot_S64x512_S512x512_S64x512_1_1_0_0_n_n : DotDims S64x512 S512x512 S64x512 where
  lhsContracting := [1]
  rhsContracting := [1]
  lhsNonContracting := [0]
  rhsNonContracting := [0]
  lhsBatch := []
  rhsBatch := []
  wf := dot_S64x512_S512x512_S64x512_1_1_0_0_n_n_wf
def dot_S768x512_S768x768_S512x768_0_1_1_0_n_n : DotDims S768x512 S768x768 S512x768 where
  lhsContracting := [0]
  rhsContracting := [1]
  lhsNonContracting := [1]
  rhsNonContracting := [0]
  lhsBatch := []
  rhsBatch := []
  wf := dot_S768x512_S768x768_S512x768_0_1_1_0_n_n_wf

abbrev win0_0 : Pipeline.Window sig grid0 :=
  Pipeline.Window.ofSpec (Memref.whole main_v0) S1x1x512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2304x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S768x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1x512x768.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x4x512x768 : Shape := ⟨4, ![8, 4, 512, 768]⟩
abbrev S2304x768 : Shape := ⟨2, ![2304, 768]⟩
abbrev S768x768 : Shape := ⟨2, ![768, 768]⟩
abbrev S768 : Shape := ⟨1, ![768]⟩
abbrev S8x4x512x2304 : Shape := ⟨4, ![8, 4, 512, 2304]⟩
abbrev S8x4x512x3x12x64 : Shape := ⟨6, ![8, 4, 512, 3, 12, 64]⟩
abbrev S3x8x4x12x512x64 : Shape := ⟨6, ![3, 8, 4, 12, 512, 64]⟩
abbrev S1x8x4x12x512x64 : Shape := ⟨6, ![1, 8, 4, 12, 512, 64]⟩
abbrev S8x4x12x512x64 : Shape := ⟨5, ![8, 4, 12, 512, 64]⟩
abbrev S_ : Shape := ⟨0, ![]⟩
abbrev S8x4x12x512x512 : Shape := ⟨5, ![8, 4, 12, 512, 512]⟩
abbrev S8x4x12x512 : Shape := ⟨4, ![8, 4, 12, 512]⟩
abbrev S8x4x12x512x1 : Shape := ⟨5, ![8, 4, 12, 512, 1]⟩
abbrev S8x4x512x12x64 : Shape := ⟨5, ![8, 4, 512, 12, 64]⟩
abbrev S1x1x1x768 : Shape := ⟨4, ![1, 1, 1, 768]⟩

abbrev nBuf : Space → Nat
  | .hbm => 38
  | .vmem => 0
  | .smem => 0
  | _ => 0

abbrev bufTy : (tb : Table) → Fin (tcTables nBuf tb) → BufTy
  | .hbm, ⟨0, _⟩ => ⟨S8x4x512x768, .f32⟩
  | .hbm, ⟨1, _⟩ => ⟨S2304x768, .f32⟩
  | .hbm, ⟨2, _⟩ => ⟨S768x768, .f32⟩
  | .hbm, ⟨3, _⟩ => ⟨S768, .f32⟩
  | .hbm, ⟨4, _⟩ => ⟨S8x4x512x2304, .f32⟩
  | .hbm, ⟨5, _⟩ => ⟨S8x4x512x3x12x64, .f32⟩
  | .hbm, ⟨6, _⟩ => ⟨S3x8x4x12x512x64, .f32⟩
  | .hbm, ⟨7, _⟩ => ⟨S1x8x4x12x512x64, .f32⟩
  | .hbm, ⟨8, _⟩ => ⟨S8x4x12x512x64, .f32⟩
  | .hbm, ⟨9, _⟩ => ⟨S1x8x4x12x512x64, .f32⟩
  | .hbm, ⟨10, _⟩ => ⟨S8x4x12x512x64, .f32⟩
  | .hbm, ⟨11, _⟩ => ⟨S1x8x4x12x512x64, .f32⟩
  | .hbm, ⟨12, _⟩ => ⟨S8x4x12x512x64, .f32⟩
  | .hbm, ⟨13, _⟩ => ⟨S_, .f32⟩
  | .hbm, ⟨14, _⟩ => ⟨S8x4x12x512x64, .f32⟩
  | .hbm, ⟨15, _⟩ => ⟨S8x4x12x512x64, .f32⟩
  | .hbm, ⟨16, _⟩ => ⟨S8x4x12x512x512, .f32⟩
  | .hbm, ⟨17, _⟩ => ⟨S_, .f32⟩
  | .hbm, ⟨18, _⟩ => ⟨S8x4x12x512, .f32⟩
  | .hbm, ⟨19, _⟩ => ⟨S_, .f32⟩
  | .hbm, ⟨20, _⟩ => ⟨S8x4x12x512, .f32⟩
  | .hbm, ⟨21, _⟩ => ⟨S8x4x12x512, .f32⟩
  | .hbm, ⟨22, _⟩ => ⟨S8x4x12x512x1, .f32⟩
  | .hbm, ⟨23, _⟩ => ⟨S8x4x12x512x512, .f32⟩
  | .hbm, ⟨24, _⟩ => ⟨S8x4x12x512x512, .f32⟩
  | .hbm, ⟨25, _⟩ => ⟨S8x4x12x512x512, .f32⟩
  | .hbm, ⟨26, _⟩ => ⟨S_, .f32⟩
  | .hbm, ⟨27, _⟩ => ⟨S8x4x12x512, .f32⟩
  | .hbm, ⟨28, _⟩ => ⟨S8x4x12x512x1, .f32⟩
  | .hbm, ⟨29, _⟩ => ⟨S8x4x12x512x512, .f32⟩
  | .hbm, ⟨30, _⟩ => ⟨S8x4x12x512x512, .f32⟩
  | .hbm, ⟨31, _⟩ => ⟨S8x4x12x512x64, .f32⟩
  | .hbm, ⟨32, _⟩ => ⟨S8x4x512x12x64, .f32⟩
  | .hbm, ⟨33, _⟩ => ⟨S8x4x512x768, .f32⟩
  | .hbm, ⟨34, _⟩ => ⟨S8x4x512x768, .f32⟩
  | .hbm, ⟨35, _⟩ => ⟨S1x1x1x768, .f32⟩
  | .hbm, ⟨36, _⟩ => ⟨S8x4x512x768, .f32⟩
  | .hbm, ⟨37, _⟩ => ⟨S8x4x512x768, .f32⟩
  | _, _ => ⟨S8x4x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]

class Facts₀ : Prop where
  shapeCasts_S8x4x512x2304_S8x4x512x3x12x64 : S8x4x512x2304.ShapeCasts S8x4x512x3x12x64
  transposes_S8x4x512x3x12x64_S3x8x4x12x512x64_3_0_1_4_2_5 : S8x4x512x3x12x64.Transposes [3, 0, 1, 4, 2, 5] S3x8x4x12x512x64
  slices_S3x8x4x12x512x64_S1x8x4x12x512x64_0_0_0_0_0_0 : S3x8x4x12x512x64.Slices ![0, 0, 0, 0, 0, 0] S1x8x4x12x512x64
  shapeCasts_S1x8x4x12x512x64_S8x4x12x512x64 : S1x8x4x12x512x64.ShapeCasts S8x4x12x512x64
  slices_S3x8x4x12x512x64_S1x8x4x12x512x64_1_0_0_0_0_0 : S3x8x4x12x512x64.Slices ![1, 0, 0, 0, 0, 0] S1x8x4x12x512x64
  slices_S3x8x4x12x512x64_S1x8x4x12x512x64_2_0_0_0_0_0 : S3x8x4x12x512x64.Slices ![2, 0, 0, 0, 0, 0] S1x8x4x12x512x64
  bcast_S_S8x4x12x512x64 : S_.BroadcastsInDim S8x4x12x512x64 (![] : Fin 0 → Fin S8x4x12x512x64.rank)
  reducesTo_S8x4x12x512x512_S8x4x12x512_d4 : S8x4x12x512x512.ReducesTo [4] S8x4x12x512
  h_S_ : 0 < S_.numel
  bcast_S_S8x4x12x512 : S_.BroadcastsInDim S8x4x12x512 (![] : Fin 0 → Fin S8x4x12x512.rank)
  bcast_S8x4x12x512_S8x4x12x512x1_0_1_2_3 : S8x4x12x512.BroadcastsInDim S8x4x12x512x1 (![0, 1, 2, 3] : Fin 4 → Fin S8x4x12x512x1.rank)
  bcast_S8x4x12x512x1_S8x4x12x512x512_0_1_2_3_4 : S8x4x12x512x1.BroadcastsInDim S8x4x12x512x512 (![0, 1, 2, 3, 4] : Fin 5 → Fin S8x4x12x512x512.rank)
  transposes_S8x4x12x512x64_S8x4x512x12x64_0_1_3_2_4 : S8x4x12x512x64.Transposes [0, 1, 3, 2, 4] S8x4x512x12x64
  shapeCasts_S8x4x512x12x64_S8x4x512x768 : S8x4x512x12x64.ShapeCasts S8x4x512x768
  bcast_S768_S1x1x1x768_3 : S768.BroadcastsInDim S1x1x1x768 (![3] : Fin 1 → Fin S1x1x1x768.rank)
  bcast_S1x1x1x768_S8x4x512x768_0_1_2_3 : S1x1x1x768.BroadcastsInDim S8x4x512x768 (![0, 1, 2, 3] : Fin 4 → Fin S8x4x512x768.rank)
  dot_S8x4x512x768_S2304x768_S8x4x512x2304_3_1_012_0_n_n_wf : DotDims.WF S8x4x512x768 S2304x768 S8x4x512x2304 [3] [1] [0, 1, 2] [0] [] []
  dot_S8x4x12x512x64_S8x4x12x512x64_S8x4x12x512x512_4_4_3_3_012_012_wf : DotDims.WF S8x4x12x512x64 S8x4x12x512x64 S8x4x12x512x512 [4] [4] [3] [3] [0, 1, 2] [0, 1, 2]
  dot_S8x4x12x512x512_S8x4x12x512x64_S8x4x12x512x64_4_3_3_4_012_012_wf : DotDims.WF S8x4x12x512x512 S8x4x12x512x64 S8x4x12x512x64 [4] [3] [3] [4] [0, 1, 2] [0, 1, 2]
  dot_S8x4x512x768_S768x768_S8x4x512x768_3_1_012_0_n_n_wf : DotDims.WF S8x4x512x768 S768x768 S8x4x512x768 [3] [1] [0, 1, 2] [0] [] []

variable [Facts₀]

def dot_S8x4x512x768_S2304x768_S8x4x512x2304_3_1_012_0_n_n : DotDims S8x4x512x768 S2304x768 S8x4x512x2304 where
  lhsContracting := [3]
  rhsContracting := [1]
  lhsNonContracting := [0, 1, 2]
  rhsNonContracting := [0]
  lhsBatch := []
  rhsBatch := []
  wf := dot_S8x4x512x768_S2304x768_S8x4x512x2304_3_1_012_0_n_n_wf
def dot_S8x4x12x512x64_S8x4x12x512x64_S8x4x12x512x512_4_4_3_3_012_012 : DotDims S8x4x12x512x64 S8x4x12x512x64 S8x4x12x512x512 where
  lhsContracting := [4]
  rhsContracting := [4]
  lhsNonContracting := [3]
  rhsNonContracting := [3]
  lhsBatch := [0, 1, 2]
  rhsBatch := [0, 1, 2]
  wf := dot_S8x4x12x512x64_S8x4x12x512x64_S8x4x12x512x512_4_4_3_3_012_012_wf
def dot_S8x4x12x512x512_S8x4x12x512x64_S8x4x12x512x64_4_3_3_4_012_012 : DotDims S8x4x12x512x512 S8x4x12x512x64 S8x4x12x512x64 where
  lhsContracting := [4]
  rhsContracting := [3]
  lhsNonContracting := [3]
  rhsNonContracting := [4]
  lhsBatch := [0, 1, 2]
  rhsBatch := [0, 1, 2]
  wf := dot_S8x4x12x512x512_S8x4x12x512x64_S8x4x12x512x64_4_3_3_4_012_012_wf
def dot_S8x4x512x768_S768x768_S8x4x512x768_3_1_012_0_n_n : DotDims S8x4x512x768 S768x768 S8x4x512x768 where
  lhsContracting := [3]
  rhsContracting := [1]
  lhsNonContracting := [0, 1, 2]
  rhsNonContracting := [0]
  lhsBatch := []
  rhsBatch := []
  wf := dot_S8x4x512x768_S768x768_S8x4x512x768_3_1_012_0_n_n_wf

class Facts : Prop extends Facts₀ where

variable [Facts]
-- ==== Proof.Spec.lean ====
import Idealize.ShloMosaic.Lib.ValueIdx
import Idealize.ShloMosaic.PureOps.Ideal.Laws

/-!
# Windowed multi-head attention on one slab, as a function of the arguments

One slab is a 512 x 768 matrix x (512 tokens, 768 channels).  With the fused projection
matrix W : 2304 x 768, the output projection Wp : 768 x 768 and the bias : 768:

* proj n j = sum over c of x n c * W j c  -- the fused q/k/v projection; row j = 768 s + 64 h + e
  of W is lane e of head h of q (s = 0), k (s = 1) or v (s = 2);
* logit h n m = sum over e of (q n e * 1/8) * k m e  -- the scaled scores of head h;
* rowMax h n = max over m of logit h n m, folded from -inf;
* expo h n m = exp (logit h n m - rowMax h n), denom h n = sum over m of expo h n m,
  prob h n m = expo h n m / denom h n  -- the softmax over the keys m;
* attn h n e = sum over m of prob h n m * v m e;
* out n d = (sum over c of attn (c / 64) n (c % 64) * Wp d c) + bias d.

All sums are over the extended reals; 1/8 and -inf are kept as the binary words both programs
print.  G is the whole result array: slab (b, p) of the input goes to slab (b, p) of the output.
-/

noncomputable section

namespace Cert.Attn

open Idealize.ShloMosaic Idealize.ShloMosaic.ValueIdx

/-- The literal 0.125 = 64^(-1/2) both programs multiply the queries by. -/
def scale : EReal := Ideal.ofBits .f32 0x3E000000#32
/-- The literal -inf both row maxima are folded from. -/
def negInf : EReal := Ideal.ofBits .f32 0xFF800000#32

/-- Row of the fused projection holding lane e of head h of the queries. -/
def rowQ (h : Fin 12) (e : Fin 64) : Fin 2304 := ⟨h.val * 64 + e.val, by omega⟩
/-- ... of the keys. -/
def rowK (h : Fin 12) (e : Fin 64) : Fin 2304 := ⟨768 + h.val * 64 + e.val, by omega⟩
/-- ... of the values. -/
def rowV (h : Fin 12) (e : Fin 64) : Fin 2304 := ⟨1536 + h.val * 64 + e.val, by omega⟩
/-- The head a merged channel belongs to. -/
def headOf (c : Fin 768) : Fin 12 := ⟨c.val / 64, by omega⟩
/-- The lane of a merged channel inside its head. -/
def laneOf (c : Fin 768) : Fin 64 := ⟨c.val % 64, by omega⟩

section slab
variable (x : Fin 512 → Fin 768 → EReal) (W : Fin 2304 → Fin 768 → EReal)
  (Wp : Fin 768 → Fin 768 → EReal) (bias : Fin 768 → EReal)

/-- The fused q/k/v projection of token n, row j. -/
def proj (n : Fin 512) (j : Fin 2304) : EReal := ∑ c : Fin 768, x n c * W j c

/-- Scaled score of query token n against key token m in head h. -/
def logit (h : Fin 12) (n m : Fin 512) : EReal :=
  ∑ e : Fin 64, (proj x W n (rowQ h e) * scale) * proj x W m (rowK h e)

/-- The row maximum of the scores, folded from -inf. -/
def rowMax (h : Fin 12) (n : Fin 512) : EReal :=
  (Finset.univ : Finset (Fin 512)).fold max negInf (fun m => logit x W h n m)

/-- The shifted exponential of a score. -/
def expo (h : Fin 12) (n m : Fin 512) : EReal := Ideal.exp (logit x W h n m - rowMax x W h n)

/-- The softmax denominator of a row. -/
def denom (h : Fin 12) (n : Fin 512) : EReal := ∑ m : Fin 512, expo x W h n m

/-- The softmax weight of key m for query n. -/
def prob (h : Fin 12) (n m : Fin 512) : EReal := Ideal.div (expo x W h n m) (denom x W h n)

/-- Head h's attention output for token n, lane e. -/
def attn (h : Fin 12) (n : Fin 512) (e : Fin 64) : EReal :=
  ∑ m : Fin 512, prob x W h n m * proj x W m (rowV h e)

/-- The slab's result: heads merged along the channel axis, projected by Wp, plus the bias. -/
def out (n : Fin 512) (d : Fin 768) : EReal :=
  (∑ c : Fin 768, attn x W (headOf c) n (laneOf c) * Wp d c) + bias d

end slab

/-- The whole result array as one function of the four argument arrays. -/
def G (X : (⟨4, ![8, 4, 512, 768]⟩ : Shape).Idx → EReal) (W : (⟨2, ![2304, 768]⟩ : Shape).Idx → EReal)
    (Wp : (⟨2, ![768, 768]⟩ : Shape).Idx → EReal) (B : (⟨1, ![768]⟩ : Shape).Idx → EReal) :
    (⟨4, ![8, 4, 512, 768]⟩ : Shape).Idx → EReal := fun i =>
  out (fun n c => X (ix4 (i 0) (i 1) n c)) (fun j c => W (ix2 j c)) (fun d c => Wp (ix2 d c)) (fun d => B (ix1 d))
    (i 2) (i 3)

end Cert.Attn

end
-- ==== Proof.KDefs.lean ====
import proofs.«105651_j35553739276448_2_alg».proof.Proof.Gen.KernelIdeal.Skeleton
import proofs.«105651_j35553739276448_2_alg».proof.Proof.Spec

/-!
# One attention head of the kernel body as a function of its three slices

The kernel body computes the fused projection once (a 2304 x 512 matrix, transposed layout: row = projection row,
column = token) and then, for each of the twelve heads, takes three 64-row slices of it -- the head's queries, keys
and values -- and runs the same chain on them: scale the queries by 1/8, scores = queries^T keys, row maximum,
shifted exponential, row sum, quotient, values times weights^T.  headCore is that chain, stated once for any three
64 x 512 slices; every head's stored block is headCore of its slices.
-/

noncomputable section

namespace Cert.KernelIdeal.KMath

open Cert.KernelIdeal Cert.KernelIdeal.Gen Idealize.ShloMosaic

variable {F : FTy → Type} [FloatOps F]

/-- The per-head chain of the kernel body on the head's query, key and value slices (each 64 lanes x 512 tokens):
    the 64 x 512 block the head stores into the merged (768 x 512) buffer. -/
def headCore (q k v : FVec F S64x512 .f32) : FVec F S64x512 .bf16 :=
  have cst_5 : F .f32 := Scalar.ofBits .f32 0x3E000000#32
  have v8 : FVec F S64x512 .f32 := broadcast S64x512 cst_5
  have v9 : FVec F S64x512 .f32 := mulf q v8
  have v10 : FVec F S64x512 .bf16 := truncf .bf16 v9 bitsLt_bf16_f32
  have v11 : FVec F S64x512 .bf16 := truncf .bf16 k bitsLt_bf16_f32
  have v12 : FVec F S64x512 .bf16 := truncf .bf16 v bitsLt_bf16_f32
  have cst_6 : FVec F S512x512 .f32 := constant S512x512 .f32 0x00000000#32
  have v13 : FVec F S512x512 .f32 := matmul dot_S64x512_S64x512_S512x512_0_0_1_1_n_n none v10 v11 cst_6
  have v14 : FVec F S512 .f32 := multiReduction .maximumf [1] S512 v13 0xFF800000#32 reduces_S512x512_S512 (.inl rfl) rfl
  have v15 : FVec F S512x1 .f32 := shapeCast S512x1 v14 shapeCasts_S512_S512x1
  have v16 : FVec F S512x512 .f32 := broadcastTo S512x512 v15 broadcasts_S512x1_S512x512
  have v17 : FVec F S512x512 .f32 := subf v13 v16
  have v18 : FVec F S512x512 .f32 := exp v17
  have v19 : FVec F S512 .f32 := multiReduction .add [1] S512 v18 0x00000000#32 reduces_S512x512_S512 (.inl rfl) rfl
  have v20 : FVec F S512x1 .f32 := shapeCast S512x1 v19 shapeCasts_S512_S512x1
  have v21 : FVec F S512x512 .f32 := broadcastTo S512x512 v20 broadcasts_S512x1_S512x512
  have v22 : FVec F S512x512 .f32 := divf v18 v21
  have v23 : FVec F S512x512 .bf16 := truncf .bf16 v22 bitsLt_bf16_f32
  have cst_9 : FVec F S64x512 .f32 := constant S64x512 .f32 0x00000000#32
  have v24 : FVec F S64x512 .f32 := matmul dot_S64x512_S512x512_S64x512_1_1_0_0_n_n none v12 v23 cst_9
  have v25 : FVec F S64x512 .bf16 := truncf .bf16 v24 bitsLt_bf16_f32
  have v28 : FVec F S64x512 .bf16 := shapeCast S64x512 v25 shapeCasts_S64x512_S64x512
  v28

/-- Head 0: rows 0, 768, 1536 of the fused projection. -/
theorem head0_eq (x0 : Vec F S1x1x512x768 .bf16) (x1 : Vec F S2304x768 .bf16) :
    k0_pay2 x0 x1 = headCore
      (extractStridedSlice S64x512 ![0, 0] (k0_pay1 x0 x1) slices_S2304x512_o0_0_S64x512)
      (extractStridedSlice S64x512 ![768, 0] (k0_pay1 x0 x1) slices_S2304x512_o768_0_S64x512)
      (extractStridedSlice S64x512 ![1536, 0] (k0_pay1 x0 x1) slices_S2304x512_o1536_0_S64x512) := rfl

/-- Head 1 (its chain is cut in three by the printed program's parts). -/
theorem head1_eq (x0 : Vec F S1x1x512x768 .bf16) (x1 : Vec F S2304x768 .bf16) :
    k0_pay6 (k0_pay3 x0 x1) (k0_pay4 x0 x1) (k0_pay5 x0 x1) = headCore
      (extractStridedSlice S64x512 ![64, 0] (k0_pay1 x0 x1) slices_S2304x512_o64_0_S64x512)
      (extractStridedSlice S64x512 ![832, 0] (k0_pay1 x0 x1) slices_S2304x512_o832_0_S64x512)
      (extractStridedSlice S64x512 ![1600, 0] (k0_pay1 x0 x1) slices_S2304x512_o1600_0_S64x512) := rfl

theorem head2_eq (v4 : FVec F S2304x512 .f32) :
    k0_pay7 v4 = headCore
      (extractStridedSlice S64x512 ![128, 0] v4 slices_S2304x512_o128_0_S64x512)
      (extractStridedSlice S64x512 ![896, 0] v4 slices_S2304x512_o896_0_S64x512)
      (extractStridedSlice S64x512 ![1664, 0] v4 slices_S2304x512_o1664_0_S64x512) := rfl

end Cert.KernelIdeal.KMath

end
-- ==== Proof.KBody.lean ====
import proofs.«105651_j35553739276448_2_alg».proof.Proof.Gen.KernelIdeal.Frame
import proofs.«105651_j35553739276448_2_alg».proof.Proof.KDefs
import Idealize.ShloMosaic.Lib.Pipeline.Value
import Idealize.ShloMosaic.Lib.Tactic

/-!
# What one grid point leaves in its output block

At a grid point the body loads the point's 512 x 768 slab of x and the three weight arrays, stores twelve
64 x 512 blocks (one per head) into the 768 x 512 merged buffer at rows 64 h, loads the whole merged buffer back,
and stores ONE block into the output: the final projection of that buffer plus the bias.  So the output block is
the final payload applied to the merged buffer read back, and the merged buffer read back is, entry by entry, the
last block stored over that entry: the canonical reading of the list of twelve stores.
-/

set_option maxRecDepth 16384

noncomputable section

namespace Cert.KernelIdeal.KBody

open Cert.KernelIdeal Cert.KernelIdeal.Gen Idealize.ShloMosaic Idealize.ShloMosaic.TcCoe Idealize.ShloMosaic.Tactic
  Idealize.SL.Sem

variable {F : FTy → Type} [FloatOps F]

theorem hz4 : (![0, 0, 0, 0] : Fin 4 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The twelve head blocks stored into the merged buffer, last store first: head h's block sits at rows 64 h. -/
def stored (x0 : Vec F S1x1x512x768 .bf16) (x1 : Vec F S2304x768 .bf16) : List (View.Piece (Elt F) S768x512 .bf16) :=
  [
    ⟨Rect.unit ![704, 0] ![64, 512] inb_S768x512_S64x512_704_0, k0_pay26 (k0_pay1 x0 x1)⟩,
    ⟨Rect.unit ![640, 0] ![64, 512] inb_S768x512_S64x512_640_0, k0_pay25 (k0_pay24 (k0_pay1 x0 x1))⟩,
    ⟨Rect.unit ![576, 0] ![64, 512] inb_S768x512_S64x512_576_0, k0_pay23 (k0_pay1 x0 x1)⟩,
    ⟨Rect.unit ![512, 0] ![64, 512] inb_S768x512_S64x512_512_0, k0_pay22 (k0_pay21 (k0_pay1 x0 x1))⟩,
    ⟨Rect.unit ![448, 0] ![64, 512] inb_S768x512_S64x512_448_0, k0_pay20 (k0_pay1 x0 x1) (k0_pay18 (k0_pay1 x0 x1)) (k0_pay19 (k0_pay1 x0 x1))⟩,
    ⟨Rect.unit ![384, 0] ![64, 512] inb_S768x512_S64x512_384_0, k0_pay17 (k0_pay1 x0 x1)⟩,
    ⟨Rect.unit ![320, 0] ![64, 512] inb_S768x512_S64x512_320_0, k0_pay16 (k0_pay13 (k0_pay1 x0 x1)) (k0_pay14 (k0_pay1 x0 x1)) (k0_pay15 (k0_pay1 x0 x1))⟩,
    ⟨Rect.unit ![256, 0] ![64, 512] inb_S768x512_S64x512_256_0, k0_pay12 (k0_pay1 x0 x1)⟩,
    ⟨Rect.unit ![192, 0] ![64, 512] inb_S768x512_S64x512_192_0, k0_pay11 (k0_pay8 (k0_pay1 x0 x1)) (k0_pay9 (k0_pay1 x0 x1)) (k0_pay10 (k0_pay1 x0 x1)) (constant S512x512 .f32 0#32)⟩,
    ⟨Rect.unit ![128, 0] ![64, 512] inb_S768x512_S64x512_128_0, k0_pay7 (k0_pay1 x0 x1)⟩,
    ⟨Rect.unit ![64, 0] ![64, 512] inb_S768x512_S64x512_64_0, k0_pay6 (k0_pay3 x0 x1) (k0_pay4 x0 x1) (k0_pay5 x0 x1)⟩,
    ⟨Rect.unit ![0, 0] ![64, 512] inb_S768x512_S64x512_0_0, k0_pay2 x0 x1⟩]

/-- The merged buffer as the final load finds it: at each entry, the block stored there. -/
def mergedRead (x0 : Vec F S1x1x512x768 .bf16) (x1 : Vec F S2304x768 .bf16) : Vec F S768x512 .bf16 :=
  fun (j : (Rect.unit (s := S768x512) ![0, 0] ![768, 512] inb_S768x512_S768x512_0_0).shape.Idx) =>
    View.canon (stored x0 x1) ((Rect.unit (s := S768x512) ![0, 0] ![768, 512] inb_S768x512_S768x512_0_0).idx j)

/-- The output block a grid point leaves: the final projection (plus bias) of the merged buffer read back. -/
theorem out_A_eq (c : Dev nD) (i : grid0.Coords) (arg2 : Memref sig .tc .vmem S1x1x512x768 .bf16) (harg2 : arg2.IsWhole)
    (arg3 : Memref sig .tc .vmem S2304x768 .bf16) (harg3 : arg3.IsWhole) (arg4 : Memref sig .tc .vmem S768x768 .bf16) (harg4 : arg4.IsWhole)
    (arg5 : Memref sig .tc .vmem S768 .f32) (harg5 : arg5.IsWhole) (arg6 : Memref sig .tc .vmem S1x1x512x768 .f32) (harg6 : arg6.IsWhole)
    (arg7 : Memref sig .tc .vmem S768x512 .bf16) (harg7 : arg7.IsWhole)
    (x0 : Vec F S1x1x512x768 .bf16) (x1 : Vec F S2304x768 .bf16) (x2 : Vec F S768x768 .bf16) (x3 : Vec F S768 .f32) :
    out0_A_4 c i arg2 harg2 arg3 harg3 arg4 harg4 arg5 harg5 arg6 harg6 arg7 harg7 x0 x1 x2 x3
      = k0_pay27 (mergedRead x0 x1) x2 x3 := by
  unfold out0_A_4
  rw [View.read_writes_eq_canon _ _ _ (cover0_A_4 c i arg2 harg2 arg3 harg3 arg4 harg4 arg5 harg5 arg6 harg6 arg7 harg7 x0 x1 x2 x3)]
  unfold kernelRun0_A
  dsimp only
  sl_unfold_words
  rw [View.canon_unit_zero hz4]
  simp only [View.readAt_eq_ld, harg2.read_unread, harg3.read_unread, harg4.read_unread, harg5.read_unread,
    View.ld_unit_zero (S := S1x1x512x768) hz4, View.ld_unit_zero (S := S2304x768) hz2, View.ld_unit_zero (S := S768x768) hz2,
    View.ld_unit_zero (S := S768) hz1]
  rw [View.readCov_eq_canon']
  rfl

end Cert.KernelIdeal.KBody

end
-- ==== Proof.KHeads.lean ====
import proofs.«105651_j35553739276448_2_alg».proof.Proof.KDefs

/-!
# Heads 3 to 11 of the kernel body are the same chain on their own slices

The printed body unrolls the twelve heads; its text is cut into parts at fixed statement counts, so a head's
chain may be split over two parts and is then named in several pieces.  Put back together, each head's stored
block is headCore of the three 64-row slices of the fused projection at rows 64 h, 768 + 64 h and 1536 + 64 h.
(Heads 0, 1, 2 are beside the definition of headCore.)
-/

noncomputable section

namespace Cert.KernelIdeal.KMath

open Cert.KernelIdeal Cert.KernelIdeal.Gen Idealize.ShloMosaic

variable {F : FTy → Type} [FloatOps F]

/-- Head 3: rows 192, 960, 1728 of the fused projection. -/
theorem head3_eq (v4 : FVec F S2304x512 .f32) :
    k0_pay11 (k0_pay8 v4) (k0_pay9 v4) (k0_pay10 v4) (constant S512x512 .f32 0#32) = headCore
      (extractStridedSlice S64x512 ![192, 0] v4 slices_S2304x512_o192_0_S64x512)
      (extractStridedSlice S64x512 ![960, 0] v4 slices_S2304x512_o960_0_S64x512)
      (extractStridedSlice S64x512 ![1728, 0] v4 slices_S2304x512_o1728_0_S64x512) := rfl

/-- Head 4: rows 256, 1024, 1792 of the fused projection. -/
theorem head4_eq (v4 : FVec F S2304x512 .f32) :
    k0_pay12 v4 = headCore
      (extractStridedSlice S64x512 ![256, 0] v4 slices_S2304x512_o256_0_S64x512)
      (extractStridedSlice S64x512 ![1024, 0] v4 slices_S2304x512_o1024_0_S64x512)
      (extractStridedSlice S64x512 ![1792, 0] v4 slices_S2304x512_o1792_0_S64x512) := rfl

/-- Head 5: rows 320, 1088, 1856 of the fused projection. -/
theorem head5_eq (v4 : FVec F S2304x512 .f32) :
    k0_pay16 (k0_pay13 v4) (k0_pay14 v4) (k0_pay15 v4) = headCore
      (extractStridedSlice S64x512 ![320, 0] v4 slices_S2304x512_o320_0_S64x512)
      (extractStridedSlice S64x512 ![1088, 0] v4 slices_S2304x512_o1088_0_S64x512)
      (extractStridedSlice S64x512 ![1856, 0] v4 slices_S2304x512_o1856_0_S64x512) := rfl

/-- Head 6: rows 384, 1152, 1920 of the fused projection. -/
theorem head6_eq (v4 : FVec F S2304x512 .f32) :
    k0_pay17 v4 = headCore
      (extractStridedSlice S64x512 ![384, 0] v4 slices_S2304x512_o384_0_S64x512)
      (extractStridedSlice S64x512 ![1152, 0] v4 slices_S2304x512_o1152_0_S64x512)
      (extractStridedSlice S64x512 ![1920, 0] v4 slices_S2304x512_o1920_0_S64x512) := rfl

/-- Head 7: rows 448, 1216, 1984 of the fused projection. -/
theorem head7_eq (v4 : FVec F S2304x512 .f32) :
    k0_pay20 v4 (k0_pay18 v4) (k0_pay19 v4) = headCore
      (extractStridedSlice S64x512 ![448, 0] v4 slices_S2304x512_o448_0_S64x512)
      (extractStridedSlice S64x512 ![1216, 0] v4 slices_S2304x512_o1216_0_S64x512)
      (extractStridedSlice S64x512 ![1984, 0] v4 slices_S2304x512_o1984_0_S64x512) := rfl

/-- Head 8: rows 512, 1280, 2048 of the fused projection. -/
theorem head8_eq (v4 : FVec F S2304x512 .f32) :
    k0_pay22 (k0_pay21 v4) = headCore
      (extractStridedSlice S64x512 ![512, 0] v4 slices_S2304x512_o512_0_S64x512)
      (extractStridedSlice S64x512 ![1280, 0] v4 slices_S2304x512_o1280_0_S64x512)
      (extractStridedSlice S64x512 ![2048, 0] v4 slices_S2304x512_o2048_0_S64x512) := rfl

/-- Head 9: rows 576, 1344, 2112 of the fused projection. -/
theorem head9_eq (v4 : FVec F S2304x512 .f32) :
    k0_pay23 v4 = headCore
      (extractStridedSlice S64x512 ![576, 0] v4 slices_S2304x512_o576_0_S64x512)
      (extractStridedSlice S64x512 ![1344, 0] v4 slices_S2304x512_o1344_0_S64x512)
      (extractStridedSlice S64x512 ![2112, 0] v4 slices_S2304x512_o2112_0_S64x512) := rfl

/-- Head 10: rows 640, 1408, 2176 of the fused projection. -/
theorem head10_eq (v4 : FVec F S2304x512 .f32) :
    k0_pay25 (k0_pay24 v4) = headCore
      (extractStridedSlice S64x512 ![640, 0] v4 slices_S2304x512_o640_0_S64x512)
      (extractStridedSlice S64x512 ![1408, 0] v4 slices_S2304x512_o1408_0_S64x512)
      (extractStridedSlice S64x512 ![2176, 0] v4 slices_S2304x512_o2176_0_S64x512) := rfl

/-- Head 11: rows 704, 1472, 2240 of the fused projection. -/
theorem head11_eq (v4 : FVec F S2304x512 .f32) :
    k0_pay26 v4 = headCore
      (extractStridedSlice S64x512 ![704, 0] v4 slices_S2304x512_o704_0_S64x512)
      (extractStridedSlice S64x512 ![1472, 0] v4 slices_S2304x512_o1472_0_S64x512)
      (extractStridedSlice S64x512 ![2240, 0] v4 slices_S2304x512_o2240_0_S64x512) := rfl

end Cert.KernelIdeal.KMath

end
-- ==== Proof.LibKeepdims.lean ====
/-
  Keepdims layouts read at an index given by coordinates.

  A sum taken with `keepdims=True` leaves a unit axis where the summed axis was, so a kernel that brings a matrix down
  to a 1×1 cell one axis at a time passes through the column shapes: a vector `[a]` is made a column `[a, 1]`, a
  column is read back as a vector, laid as a row `[1, a]`, or broadcast across `b` columns. Each lemma reads one of
  these at an index written with `ix1` / `ix2`. The reason is the same every time: the unit coordinate `u : Fin 1`
  is `0`, so the row-major position of `(i, u)` in `[a, 1]` is `i · 1 + 0 = i`, the position of `i` in `[a]`
  and of `(0, i)` in `[1, a]`.

  These complete the leading-unit-axis forms of Lib/ValueLayout.lean (`shapeCast_a_1a_apply`, `shapeCast_1a_a_apply`,
  `broadcastTo_1b_ab_apply`) on the trailing side.
-/
import Idealize.ShloMosaic.Lib.ValueLayout

namespace Idealize.ShloMosaic.KeepdimsLayout

open Idealize.ShloMosaic Idealize.ShloMosaic.ValueIdx

variable {α : Type}

/-- A vector `[a]` cast to a column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to a vector `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` cast to a row `[1, a]` reads, at `(u, i)`, the operand at `(i, 0)`: the transpose of a
    column costs nothing, both lay the `a` entries out in order. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- A row `[1, a]` cast to a column `[a, 1]` reads, at `(i, u)`, the operand at `(0, i)`. -/
theorem shapeCast_1a_a1_apply {a : ℕ} (x : (⟨2, ![1, a]⟩ : Shape).Idx → α) (h : (⟨2, ![1, a]⟩ : Shape).ShapeCasts ⟨2, ![a, 1]⟩)
    (i : Fin a) (u : Fin 1) : shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.mul_one, Nat.add_zero, Nat.zero_mul, Nat.zero_add])

/-- A column `[a, 1]` broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-entry vector `[1]` cast to a cell `[1, 1]` reads, anywhere, the operand's entry: the last step of a matrix
    summed down to one cell. -/
theorem shapeCast_1_11_apply (x : (⟨1, ![1]⟩ : Shape).Idx → α) (h : (⟨1, ![1]⟩ : Shape).ShapeCasts ⟨2, ![1, 1]⟩)
    (i u : Fin 1) : shapeCast ⟨2, ![1, 1]⟩ x h (ix2 i u) = x (ix1 (0 : Fin 1)) := by
  have hi : i = 0 := Subsingleton.elim _ _
  subst hi
  exact shapeCast_a_a1_apply x h 0 u

end Idealize.ShloMosaic.KeepdimsLayout
-- ==== Proof.KHead.lean ====
import proofs.«105651_j35553739276448_2_alg».proof.Proof.KDefs
import proofs.«105651_j35553739276448_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

/-!
# One attention head of the kernel body read at an index

headCore (the per-head chain on a head's query, key and value slices, each 64 lanes x 512 tokens) read at lane e and
query token n. The chain has four operations that are not pointwise: the scores product (contracting the 64 lanes of
the scaled queries against the keys), the row maximum and the row sum of the 512 x 512 matrix (each kept as a column
and broadcast back over its row), and the product of the values with the transposed weights (contracting the 512 key
tokens). Each is read at an index on its own, over arbitrary operands; the pointwise operations between them are the
extended reals' by definition, so the chain at (e, n) is

  ∑ m, v (e, m) * ( exp (lg n m - mx n) / ∑ m', exp (lg n m' - mx n) )

with lg n m = ∑ e, (q (e, n) * 1/8) * k (e, m) the score of query token n against key token m and mx n its row's
maximum folded from -inf.
-/

noncomputable section
namespace Cert.KernelIdeal.KMath
open Cert.KernelIdeal Cert.KernelIdeal.Gen Idealize.ShloMosaic Idealize.ShloMosaic.ValueIdx

/-- The scores of a head from its query and key slices: token n against token m. -/
def lg (q k : FVec Ideal S64x512 .f32) (n m : Fin 512) : EReal :=
  ∑ e : Fin 64, (q (ix2 e n) * Cert.Attn.scale) * k (ix2 e m)

/-- Their row maximum, folded from -inf. -/
def mx (q k : FVec Ideal S64x512 .f32) (n : Fin 512) : EReal :=
  (Finset.univ : Finset (Fin 512)).fold max Cert.Attn.negInf (fun m => lg q k n m)

/-! ### The scores product: contraction of the 64 lanes -/

theorem headScores_lhs0 (i : S512x512.Idx) (q : dot_S64x512_S64x512_S512x512_0_0_1_1_n_n.contr.Idx) :
    (dot_S64x512_S64x512_S512x512_0_0_1_1_n_n.lhsIdx i q 0).val = (q ⟨0, by decide⟩).val :=
  dot_S64x512_S64x512_S512x512_0_0_1_1_n_n.lhsIdx_val_of_single rfl i q
theorem headScores_lhs1 (i : S512x512.Idx) (q : dot_S64x512_S64x512_S512x512_0_0_1_1_n_n.contr.Idx) :
    (dot_S64x512_S64x512_S512x512_0_0_1_1_n_n.lhsIdx i q 1).val = (i 0).val := by
  unfold DotDims.lhsIdx
  rw [dif_neg (show ¬(1 : Fin S64x512.rank) ∈ dot_S64x512_S64x512_S512x512_0_0_1_1_n_n.lhsBatch by decide), dif_pos (show (1 : Fin S64x512.rank) ∈ dot_S64x512_S64x512_S512x512_0_0_1_1_n_n.lhsNonContracting by decide)]
  rfl
theorem headScores_rhs0 (i : S512x512.Idx) (q : dot_S64x512_S64x512_S512x512_0_0_1_1_n_n.contr.Idx) :
    (dot_S64x512_S64x512_S512x512_0_0_1_1_n_n.rhsIdx i q 0).val = (q ⟨0, by decide⟩).val :=
  dot_S64x512_S64x512_S512x512_0_0_1_1_n_n.rhsIdx_val_of_single rfl i q
theorem headScores_rhs1 (i : S512x512.Idx) (q : dot_S64x512_S64x512_S512x512_0_0_1_1_n_n.contr.Idx) :
    (dot_S64x512_S64x512_S512x512_0_0_1_1_n_n.rhsIdx i q 1).val = (i 1).val := by
  unfold DotDims.rhsIdx
  rw [dif_neg (show ¬(1 : Fin S64x512.rank) ∈ dot_S64x512_S64x512_S512x512_0_0_1_1_n_n.rhsBatch by decide), dif_pos (show (1 : Fin S64x512.rank) ∈ dot_S64x512_S64x512_S512x512_0_0_1_1_n_n.rhsNonContracting by decide)]
  rfl

/-- The scores matrix at (n, m): the sum over the 64 lanes of the two operands' columns n and m. -/
theorem headScores_dot_apply (x y : FVec Ideal S64x512 .bf16) (n m : Fin 512) :
    matmul dot_S64x512_S64x512_S512x512_0_0_1_1_n_n none x y (constant S512x512 .f32 0x00000000#32) (ix2 n m)
      = ∑ e : Fin 64, x (ix2 e n) * y (ix2 e m) := by
  refine (Ideal.matmul_constant_zero_apply dot_S64x512_S64x512_S512x512_0_0_1_1_n_n none x y (ix2 n m)).trans ?_
  rw [← Equiv.sum_comp (ValueIdx.contrEquiv1 dot_S64x512_S64x512_S512x512_0_0_1_1_n_n 64 rfl rfl).symm]
  refine Finset.sum_congr rfl fun k _ => ?_
  have hk := ValueIdx.contrEquiv1_symm_val dot_S64x512_S64x512_S512x512_0_0_1_1_n_n 64 rfl rfl k
  have el : dot_S64x512_S64x512_S512x512_0_0_1_1_n_n.lhsIdx (ix2 n m) ((ValueIdx.contrEquiv1 dot_S64x512_S64x512_S512x512_0_0_1_1_n_n 64 rfl rfl).symm k) = ix2 k n := funext fun a => Fin.ext (by
    match a with
    | ⟨0, _⟩ => exact (headScores_lhs0 _ _).trans hk
    | ⟨1, _⟩ => exact headScores_lhs1 _ _)
  have er : dot_S64x512_S64x512_S512x512_0_0_1_1_n_n.rhsIdx (ix2 n m) ((ValueIdx.contrEquiv1 dot_S64x512_S64x512_S512x512_0_0_1_1_n_n 64 rfl rfl).symm k) = ix2 k m := funext fun a => Fin.ext (by
    match a with
    | ⟨0, _⟩ => exact (headScores_rhs0 _ _).trans hk
    | ⟨1, _⟩ => exact headScores_rhs1 _ _)
  rw [el, er]

/-! ### The weighted sum of the values: contraction of the 512 key tokens -/

theorem headAv_lhs0 (i : S64x512.Idx) (q : dot_S64x512_S512x512_S64x512_1_1_0_0_n_n.contr.Idx) :
    (dot_S64x512_S512x512_S64x512_1_1_0_0_n_n.lhsIdx i q 0).val = (i 0).val := by
  unfold DotDims.lhsIdx
  rw [dif_neg (show ¬(0 : Fin S64x512.rank) ∈ dot_S64x512_S512x512_S64x512_1_1_0_0_n_n.lhsBatch by decide), dif_pos (show (0 : Fin S64x512.rank) ∈ dot_S64x512_S512x512_S64x512_1_1_0_0_n_n.lhsNonContracting by decide)]
  rfl
theorem headAv_lhs1 (i : S64x512.Idx) (q : dot_S64x512_S512x512_S64x512_1_1_0_0_n_n.contr.Idx) :
    (dot_S64x512_S512x512_S64x512_1_1_0_0_n_n.lhsIdx i q 1).val = (q ⟨0, by decide⟩).val :=
  dot_S64x512_S512x512_S64x512_1_1_0_0_n_n.lhsIdx_val_of_single rfl i q
theorem headAv_rhs0 (i : S64x512.Idx) (q : dot_S64x512_S512x512_S64x512_1_1_0_0_n_n.contr.Idx) :
    (dot_S64x512_S512x512_S64x512_1_1_0_0_n_n.rhsIdx i q 0).val = (i 1).val := by
  unfold DotDims.rhsIdx
  rw [dif_neg (show ¬(0 : Fin S512x512.rank) ∈ dot_S64x512_S512x512_S64x512_1_1_0_0_n_n.rhsBatch by decide), dif_pos (show (0 : Fin S512x512.rank) ∈ dot_S64x512_S512x512_S64x512_1_1_0_0_n_n.rhsNonContracting by decide)]
  rfl
theorem headAv_rhs1 (i : S64x512.Idx) (q : dot_S64x512_S512x512_S64x512_1_1_0_0_n_n.contr.Idx) :
    (dot_S64x512_S512x512_S64x512_1_1_0_0_n_n.rhsIdx i q 1).val = (q ⟨0, by decide⟩).val :=
  dot_S64x512_S512x512_S64x512_1_1_0_0_n_n.rhsIdx_val_of_single rfl i q

/-- The head's output at (e, n): the sum over the key tokens m of the value at (e, m) times the weight at (n, m). -/
theorem headAv_dot_apply (x : FVec Ideal S64x512 .bf16) (w : FVec Ideal S512x512 .bf16) (e : Fin 64) (n : Fin 512) :
    matmul dot_S64x512_S512x512_S64x512_1_1_0_0_n_n none x w (constant S64x512 .f32 0x00000000#32) (ix2 e n)
      = ∑ m : Fin 512, x (ix2 e m) * w (ix2 n m) := by
  refine (Ideal.matmul_constant_zero_apply dot_S64x512_S512x512_S64x512_1_1_0_0_n_n none x w (ix2 e n)).trans ?_
  rw [← Equiv.sum_comp (ValueIdx.contrEquiv1 dot_S64x512_S512x512_S64x512_1_1_0_0_n_n 512 rfl rfl).symm]
  refine Finset.sum_congr rfl fun k _ => ?_
  have hk := ValueIdx.contrEquiv1_symm_val dot_S64x512_S512x512_S64x512_1_1_0_0_n_n 512 rfl rfl k
  have el : dot_S64x512_S512x512_S64x512_1_1_0_0_n_n.lhsIdx (ix2 e n) ((ValueIdx.contrEquiv1 dot_S64x512_S512x512_S64x512_1_1_0_0_n_n 512 rfl rfl).symm k) = ix2 e k := funext fun a => Fin.ext (by
    match a with
    | ⟨0, _⟩ => exact headAv_lhs0 _ _
    | ⟨1, _⟩ => exact (headAv_lhs1 _ _).trans hk)
  have er : dot_S64x512_S512x512_S64x512_1_1_0_0_n_n.rhsIdx (ix2 e n) ((ValueIdx.contrEquiv1 dot_S64x512_S512x512_S64x512_1_1_0_0_n_n 512 rfl rfl).symm k) = ix2 n k := funext fun a => Fin.ext (by
    match a with
    | ⟨0, _⟩ => exact headAv_rhs0 _ _
    | ⟨1, _⟩ => exact (headAv_rhs1 _ _).trans hk)
  rw [el, er]

/-! ### The two row reductions, as columns broadcast back over the row -/

/-- The reduced index n with the column k put back is (n, k). -/
theorem headRow_lift (n : Fin 512) (k : Fin 512) : reduces_S512x512_S512.lift (ix1 n) k = ix2 n k := by
  funext c; apply Fin.ext
  fin_cases c <;> rfl

/-- The row maximum, kept as a column and broadcast over the row: at (n, m) the fold of max from -inf over row n. -/
theorem headRowmax_apply (s : FVec Ideal S512x512 .f32) (n m : Fin 512) :
    broadcastTo S512x512 (shapeCast S512x1 (multiReduction (F := Ideal) .maximumf [1] S512 s 0xFF800000#32 reduces_S512x512_S512 (.inl rfl) rfl) shapeCasts_S512_S512x1) broadcasts_S512x1_S512x512 (ix2 n m)
      = (Finset.univ : Finset (Fin 512)).fold max (Ideal.ofBits .f32 0xFF800000#32) (fun m' : Fin 512 => s (ix2 n m')) := by
  refine (KeepdimsLayout.broadcastTo_a1_ab_apply _ broadcasts_S512x1_S512x512 n m).trans ?_
  refine (KeepdimsLayout.shapeCast_a_a1_apply _ shapeCasts_S512_S512x1 n (0 : Fin 1)).trans ?_
  refine (Ideal.multiReduction_maximumf_single s 0xFF800000#32 reduces_S512x512_S512 (.inl rfl) rfl (ix1 n)).trans ?_
  have hf : (s ∘ reduces_S512x512_S512.lift (ix1 n)) = fun m' : Fin 512 => s (ix2 n m') := funext fun k => congrArg s (headRow_lift n k)
  exact congrArg (fun f => Finset.fold max (Ideal.ofBits .f32 0xFF800000#32) f (Finset.univ : Finset (Fin 512))) hf

/-- The row sum, kept as a column and broadcast over the row: at (n, m) the sum of row n. -/
theorem headRowsum_apply (s : FVec Ideal S512x512 .f32) (n m : Fin 512) :
    broadcastTo S512x512 (shapeCast S512x1 (multiReduction (F := Ideal) .add [1] S512 s 0x00000000#32 reduces_S512x512_S512 (.inl rfl) rfl) shapeCasts_S512_S512x1) broadcasts_S512x1_S512x512 (ix2 n m)
      = ∑ m' : Fin 512, s (ix2 n m') := by
  refine (KeepdimsLayout.broadcastTo_a1_ab_apply _ broadcasts_S512x1_S512x512 n m).trans ?_
  refine (KeepdimsLayout.shapeCast_a_a1_apply _ shapeCasts_S512_S512x1 n (0 : Fin 1)).trans ?_
  refine (Ideal.multiReduction_add_single s 0x00000000#32 reduces_S512x512_S512 (.inl rfl) rfl (ix1 n)).trans ?_
  exact Finset.sum_congr rfl fun k _ => congrArg s (headRow_lift n k)

/-! ### The chain, one stage at a time -/

/-- The scores matrix of the chain: the scaled queries against the keys (512 x 512, query token x key token). -/
def headScores (q k : FVec Ideal S64x512 .f32) : FVec Ideal S512x512 .f32 :=
  matmul dot_S64x512_S64x512_S512x512_0_0_1_1_n_n none
    (truncf .bf16 (mulf q (broadcast S64x512 (Scalar.ofBits .f32 0x3E000000#32))) bitsLt_bf16_f32)
    (truncf .bf16 k bitsLt_bf16_f32) (constant S512x512 .f32 0x00000000#32)

/-- The shifted exponentials: exp (score - row maximum). -/
def headExp (q k : FVec Ideal S64x512 .f32) : FVec Ideal S512x512 .f32 :=
  exp (subf (headScores q k)
    (broadcastTo S512x512 (shapeCast S512x1 (multiReduction .maximumf [1] S512 (headScores q k) 0xFF800000#32 reduces_S512x512_S512 (.inl rfl) rfl) shapeCasts_S512_S512x1) broadcasts_S512x1_S512x512))

/-- The weights: each shifted exponential over its row's sum. -/
def headWeights (q k : FVec Ideal S64x512 .f32) : FVec Ideal S512x512 .f32 :=
  divf (headExp q k)
    (broadcastTo S512x512 (shapeCast S512x1 (multiReduction .add [1] S512 (headExp q k) 0x00000000#32 reduces_S512x512_S512 (.inl rfl) rfl) shapeCasts_S512_S512x1) broadcasts_S512x1_S512x512)

/-- The chain is: values times weights^T, through a cast to the same shape. -/
theorem headCore_eq_stages (q k v : FVec Ideal S64x512 .f32) :
    headCore (F := Ideal) q k v
      = shapeCast S64x512 (truncf .bf16 (matmul dot_S64x512_S512x512_S64x512_1_1_0_0_n_n none (truncf .bf16 v bitsLt_bf16_f32)
          (truncf .bf16 (headWeights q k) bitsLt_bf16_f32) (constant S64x512 .f32 0x00000000#32)) bitsLt_bf16_f32) shapeCasts_S64x512_S64x512 := rfl

theorem headScores_apply (q k : FVec Ideal S64x512 .f32) (n m : Fin 512) : headScores q k (ix2 n m) = lg q k n m :=
  headScores_dot_apply _ _ n m

theorem headExp_apply (q k : FVec Ideal S64x512 .f32) (n m : Fin 512) :
    headExp q k (ix2 n m) = Ideal.exp (lg q k n m - mx q k n) := by
  show Ideal.exp (headScores q k (ix2 n m) - broadcastTo S512x512 (shapeCast S512x1 (multiReduction (F := Ideal) .maximumf [1] S512 (headScores q k) 0xFF800000#32 reduces_S512x512_S512 (.inl rfl) rfl) shapeCasts_S512_S512x1) broadcasts_S512x1_S512x512 (ix2 n m)) = _
  rw [headRowmax_apply, headScores_apply]
  refine congrArg (fun t => Ideal.exp (lg q k n m - t)) ?_
  exact congrArg (fun f => Finset.fold max (Ideal.ofBits .f32 0xFF800000#32) f (Finset.univ : Finset (Fin 512))) (funext fun m' => headScores_apply q k n m')

theorem headWeights_apply (q k : FVec Ideal S64x512 .f32) (n m : Fin 512) :
    headWeights q k (ix2 n m)
      = Ideal.div (Ideal.exp (lg q k n m - mx q k n)) (∑ m' : Fin 512, Ideal.exp (lg q k n m' - mx q k n)) := by
  show Ideal.div (headExp q k (ix2 n m)) (broadcastTo S512x512 (shapeCast S512x1 (multiReduction (F := Ideal) .add [1] S512 (headExp q k) 0x00000000#32 reduces_S512x512_S512 (.inl rfl) rfl) shapeCasts_S512_S512x1) broadcasts_S512x1_S512x512 (ix2 n m)) = _
  rw [headRowsum_apply, headExp_apply]
  exact congrArg (Ideal.div _) (Finset.sum_congr rfl fun m' _ => headExp_apply q k n m')

/-- One head of the kernel body at lane e, query token n: the values of lane e weighted, over the key tokens m, by
    exp (score - row maximum) over the row's sum of these. -/
theorem headCore_apply (q k v : FVec Ideal S64x512 .f32) (e : Fin 64) (n : Fin 512) :
    headCore (F := Ideal) q k v (ix2 e n)
      = ∑ m : Fin 512, v (ix2 e m) * Ideal.div (Ideal.exp (lg q k n m - mx q k n)) (∑ m' : Fin 512, Ideal.exp (lg q k n m' - mx q k n)) := by
  rw [headCore_eq_stages, shapeCast_self]
  refine (headAv_dot_apply _ _ e n).trans ?_
  exact Finset.sum_congr rfl fun m _ => congrArg (v (ix2 e m) * ·) (headWeights_apply q k n m)

end Cert.KernelIdeal.KMath
end
-- ==== Proof.KProj.lean ====
import proofs.«105651_j35553739276448_2_alg».proof.Proof.KDefs
import proofs.«105651_j35553739276448_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

/-!
# The two projections of the kernel body read at an index

The kernel body begins with the fused projection (the 2304 x 768 weight matrix times the token block, in transposed
layout: row = projection row, column = token) and ends with the output projection of the merged heads plus the bias.
Each is a matrix product into a zero accumulator between layout changes that only add or drop unit axes; read at one
index each is a single sum over the 768 contracted coordinates.
-/

noncomputable section
namespace Cert.KernelIdeal.KMath
open Cert.KernelIdeal Cert.KernelIdeal.Gen Idealize.ShloMosaic Idealize.ShloMosaic.ValueIdx

/-! ## Two leading unit axes dropped or added by a shape cast -/

/-- A `[1, 1, a, b]` block cast to `[a, b]` reads, at `(i, j)`, the block at `(0, 0, i, j)`: both lay the
    `a * b` entries out in the same order. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` matrix cast to `[1, 1, a, b]` reads, at `(u, w, i, j)`, the matrix at `(i, j)`, whatever the two unit
    coordinates. -/
theorem shapeCast_ab_11ab_apply {α : Type} {a b : ℕ} (x : (⟨2, ![a, b]⟩ : Shape).Idx → α)
    (h : (⟨2, ![a, b]⟩ : Shape).ShapeCasts ⟨4, ![1, 1, a, b]⟩) (u w : Fin 1) (i : Fin a) (j : Fin b) :
    shapeCast ⟨4, ![1, 1, a, b]⟩ x h (ix4 u w i j) = x (ix2 i j) :=
  shapeCast_apply x h _ _ (by
    have hu : u.val = 0 := by omega
    have hw : w.val = 0 := by omega
    rw [Shape.rowMajor_val_four, Shape.rowMajor_val_two]
    show i.val * b + j.val = ((u.val * 1 + w.val) * a + i.val) * b + j.val
    rw [hu, hw]
    simp only [Nat.zero_mul, Nat.zero_add])

/-! ## The fused projection -/

/-- The fused projection's left operand index: output row `j`, contracted coordinate on axis 1. -/
theorem projDot_lhs_0 (i : S2304x512.Idx) (q : dot_S2304x768_S512x768_S2304x512_1_1_0_0_n_n.contr.Idx) :
    (dot_S2304x768_S512x768_S2304x512_1_1_0_0_n_n.lhsIdx i q 0).val = (i 0).val := by
  unfold DotDims.lhsIdx
  rw [dif_neg (show ¬(0 : Fin S2304x768.rank) ∈ dot_S2304x768_S512x768_S2304x512_1_1_0_0_n_n.lhsBatch by decide), dif_pos (show (0 : Fin S2304x768.rank) ∈ dot_S2304x768_S512x768_S2304x512_1_1_0_0_n_n.lhsNonContracting by decide)]
  rfl
theorem projDot_lhs_1 (i : S2304x512.Idx) (q : dot_S2304x768_S512x768_S2304x512_1_1_0_0_n_n.contr.Idx) :
    (dot_S2304x768_S512x768_S2304x512_1_1_0_0_n_n.lhsIdx i q 1).val = (q ⟨0, by decide⟩).val :=
  dot_S2304x768_S512x768_S2304x512_1_1_0_0_n_n.lhsIdx_val_of_single rfl i q
/-- Its right operand index: output column (the token) on axis 0, contracted coordinate on axis 1. -/
theorem projDot_rhs_0 (i : S2304x512.Idx) (q : dot_S2304x768_S512x768_S2304x512_1_1_0_0_n_n.contr.Idx) :
    (dot_S2304x768_S512x768_S2304x512_1_1_0_0_n_n.rhsIdx i q 0).val = (i 1).val := by
  unfold DotDims.rhsIdx
  rw [dif_neg (show ¬(0 : Fin S512x768.rank) ∈ dot_S2304x768_S512x768_S2304x512_1_1_0_0_n_n.rhsBatch by decide), dif_pos (show (0 : Fin S512x768.rank) ∈ dot_S2304x768_S512x768_S2304x512_1_1_0_0_n_n.rhsNonContracting by decide)]
  rfl
theorem projDot_rhs_1 (i : S2304x512.Idx) (q : dot_S2304x768_S512x768_S2304x512_1_1_0_0_n_n.contr.Idx) :
    (dot_S2304x768_S512x768_S2304x512_1_1_0_0_n_n.rhsIdx i q 1).val = (q ⟨0, by decide⟩).val :=
  dot_S2304x768_S512x768_S2304x512_1_1_0_0_n_n.rhsIdx_val_of_single rfl i q

/-- The fused projection's matrix product into the zero accumulator, read at `(j, n)`: row `j` of the weights against
    row `n` of the tokens. -/
theorem projDot_apply (w : FVec Ideal S2304x768 .bf16) (t : FVec Ideal S512x768 .bf16) (j : Fin 2304) (n : Fin 512) :
    matmul dot_S2304x768_S512x768_S2304x512_1_1_0_0_n_n none w t (constant S2304x512 .f32 0x00000000#32) (ix2 j n)
      = ∑ c : Fin 768, w (ix2 j c) * t (ix2 n c) := by
  refine (Ideal.matmul_constant_zero_apply dot_S2304x768_S512x768_S2304x512_1_1_0_0_n_n none w t (ix2 j n)).trans ?_
  rw [← Equiv.sum_comp (ValueIdx.contrEquiv1 dot_S2304x768_S512x768_S2304x512_1_1_0_0_n_n 768 rfl rfl).symm]
  refine Finset.sum_congr rfl fun k _ => ?_
  have hk := ValueIdx.contrEquiv1_symm_val dot_S2304x768_S512x768_S2304x512_1_1_0_0_n_n 768 rfl rfl k
  have el : dot_S2304x768_S512x768_S2304x512_1_1_0_0_n_n.lhsIdx (ix2 j n) ((ValueIdx.contrEquiv1 dot_S2304x768_S512x768_S2304x512_1_1_0_0_n_n 768 rfl rfl).symm k) = ix2 j k := funext fun a => Fin.ext (by
    match a with
    | ⟨0, _⟩ => exact projDot_lhs_0 _ _
    | ⟨1, _⟩ => exact (projDot_lhs_1 _ _).trans hk)
  have er : dot_S2304x768_S512x768_S2304x512_1_1_0_0_n_n.rhsIdx (ix2 j n) ((ValueIdx.contrEquiv1 dot_S2304x768_S512x768_S2304x512_1_1_0_0_n_n 768 rfl rfl).symm k) = ix2 n k := funext fun a => Fin.ext (by
    match a with
    | ⟨0, _⟩ => exact projDot_rhs_0 _ _
    | ⟨1, _⟩ => exact (projDot_rhs_1 _ _).trans hk)
  rw [el, er]

/-- THE FUSED PROJECTION at `(j, n)`: row `j` of the weights against token `n` of the block. -/
theorem proj_apply (x0 : Vec Ideal S1x1x512x768 .bf16) (x1 : Vec Ideal S2304x768 .bf16) (j : Fin 2304) (n : Fin 512) :
    k0_pay1 (F := Ideal) x0 x1 (ix2 j n) = ∑ c : Fin 768, x1 (ix2 j c) * x0 (ix4 (0 : Fin 1) (0 : Fin 1) n c) := by
  unfold k0_pay1
  refine (projDot_apply _ _ j n).trans ?_
  refine Finset.sum_congr rfl fun c _ => ?_
  rw [shapeCast_self, shapeCast_11ab_ab_apply]

/-! ## The output projection and its bias -/

/-- The output projection's left operand index: the merged buffer is `[768, 512]` (lane, token), contracted on axis 0;
    its token axis is output axis 0. -/
theorem finalDot_lhs_0 (i : S512x768.Idx) (q : dot_S768x512_S768x768_S512x768_0_1_1_0_n_n.contr.Idx) :
    (dot_S768x512_S768x768_S512x768_0_1_1_0_n_n.lhsIdx i q 0).val = (q ⟨0, by decide⟩).val :=
  dot_S768x512_S768x768_S512x768_0_1_1_0_n_n.lhsIdx_val_of_single rfl i q
theorem finalDot_lhs_1 (i : S512x768.Idx) (q : dot_S768x512_S768x768_S512x768_0_1_1_0_n_n.contr.Idx) :
    (dot_S768x512_S768x768_S512x768_0_1_1_0_n_n.lhsIdx i q 1).val = (i 0).val := by
  unfold DotDims.lhsIdx
  rw [dif_neg (show ¬(1 : Fin S768x512.rank) ∈ dot_S768x512_S768x768_S512x768_0_1_1_0_n_n.lhsBatch by decide), dif_pos (show (1 : Fin S768x512.rank) ∈ dot_S768x512_S768x768_S512x768_0_1_1_0_n_n.lhsNonContracting by decide)]
  rfl
/-- Its right operand index: the weights are `[768, 768]` (output feature, lane), contracted on axis 1; the output
    feature is output axis 1. -/
theorem finalDot_rhs_0 (i : S512x768.Idx) (q : dot_S768x512_S768x768_S512x768_0_1_1_0_n_n.contr.Idx) :
    (dot_S768x512_S768x768_S512x768_0_1_1_0_n_n.rhsIdx i q 0).val = (i 1).val := by
  unfold DotDims.rhsIdx
  rw [dif_neg (show ¬(0 : Fin S768x768.rank) ∈ dot_S768x512_S768x768_S512x768_0_1_1_0_n_n.rhsBatch by decide), dif_pos (show (0 : Fin S768x768.rank) ∈ dot_S768x512_S768x768_S512x768_0_1_1_0_n_n.rhsNonContracting by decide)]
  rfl
theorem finalDot_rhs_1 (i : S512x768.Idx) (q : dot_S768x512_S768x768_S512x768_0_1_1_0_n_n.contr.Idx) :
    (dot_S768x512_S768x768_S512x768_0_1_1_0_n_n.rhsIdx i q 1).val = (q ⟨0, by decide⟩).val :=
  dot_S768x512_S768x768_S512x768_0_1_1_0_n_n.rhsIdx_val_of_single rfl i q

/-- The output projection's matrix product into the zero accumulator, read at `(n, d)`: column `n` of the merged
    buffer against row `d` of the weights. -/
theorem finalDot_apply (m : FVec Ideal S768x512 .bf16) (w : FVec Ideal S768x768 .bf16) (n : Fin 512) (d : Fin 768) :
    matmul dot_S768x512_S768x768_S512x768_0_1_1_0_n_n none m w (constant S512x768 .f32 0x00000000#32) (ix2 n d)
      = ∑ c : Fin 768, m (ix2 c n) * w (ix2 d c) := by
  refine (Ideal.matmul_constant_zero_apply dot_S768x512_S768x768_S512x768_0_1_1_0_n_n none m w (ix2 n d)).trans ?_
  rw [← Equiv.sum_comp (ValueIdx.contrEquiv1 dot_S768x512_S768x768_S512x768_0_1_1_0_n_n 768 rfl rfl).symm]
  refine Finset.sum_congr rfl fun k _ => ?_
  have hk := ValueIdx.contrEquiv1_symm_val dot_S768x512_S768x768_S512x768_0_1_1_0_n_n 768 rfl rfl k
  have el : dot_S768x512_S768x768_S512x768_0_1_1_0_n_n.lhsIdx (ix2 n d) ((ValueIdx.contrEquiv1 dot_S768x512_S768x768_S512x768_0_1_1_0_n_n 768 rfl rfl).symm k) = ix2 k n := funext fun a => Fin.ext (by
    match a with
    | ⟨0, _⟩ => exact (finalDot_lhs_0 _ _).trans hk
    | ⟨1, _⟩ => exact finalDot_lhs_1 _ _)
  have er : dot_S768x512_S768x768_S512x768_0_1_1_0_n_n.rhsIdx (ix2 n d) ((ValueIdx.contrEquiv1 dot_S768x512_S768x768_S512x768_0_1_1_0_n_n 768 rfl rfl).symm k) = ix2 d k := funext fun a => Fin.ext (by
    match a with
    | ⟨0, _⟩ => exact finalDot_rhs_0 _ _
    | ⟨1, _⟩ => exact (finalDot_rhs_1 _ _).trans hk)
  rw [el, er]

/-- The bias `[768]` laid as a row and broadcast over the 512 tokens reads, at `(n, d)`, the bias at `d`. -/
theorem biasRows_apply (b : FVec Ideal S768 .f32) (n : Fin 512) (d : Fin 768) :
    broadcastTo S512x768 (shapeCast S1x768 b shapeCasts_S768_S1x768) broadcasts_S1x768_S512x768 (ix2 n d) = b (ix1 d) := by
  rw [broadcastTo_1b_ab_apply, shapeCast_a_1a_apply]

/-- THE OUTPUT PROJECTION at token `n`, feature `d`: the merged heads' column `n` against row `d` of the weights, plus
    the bias at `d`. -/
theorem final_apply (scr : Vec Ideal S768x512 .bf16) (x2 : Vec Ideal S768x768 .bf16) (x3 : Vec Ideal S768 .f32) (n : Fin 512) (d : Fin 768) :
    k0_pay27 (F := Ideal) scr x2 x3 (ix4 (0 : Fin 1) (0 : Fin 1) n d) = (∑ c : Fin 768, scr (ix2 c n) * x2 (ix2 d c)) + x3 (ix1 d) := by
  unfold k0_pay27
  refine (shapeCast_ab_11ab_apply _ shapeCasts_S512x768_S1x1x512x768 (0 : Fin 1) (0 : Fin 1) n d).trans ?_
  refine (addf_apply _ _ (ix2 n d)).trans ?_
  rw [finalDot_apply, biasRows_apply, shapeCast_self]

end Cert.KernelIdeal.KMath
end
-- ==== Proof.KValue.lean ====
import proofs.«105651_j35553739276448_2_alg».proof.Proof.KBody
import proofs.«105651_j35553739276448_2_alg».proof.Proof.KHeads
import proofs.«105651_j35553739276448_2_alg».proof.Proof.KHead
import proofs.«105651_j35553739276448_2_alg».proof.Proof.KProj
import proofs.«105651_j35553739276448_2_alg».proof.Proof.Spec
import Idealize.ShloMosaic.Lib.Pipeline.Value
import Idealize.ShloMosaic.Lib.ValueIdx
import Idealize.ShloMosaic.Lib.Tactic

/-!
# The output block of a grid point is the attention of its slab

Over the extended reals.  Write x n c for the point's slab of the (converted) input, W j c, Wp d c and bias d for the
weights as the body loads them.

* The fused projection the body computes is transposed: its entry (j, n) is ∑ c, W j c * x n c, which is
  proj n j of the specification once each product is commuted.
* Head h's stored block is headCore of rows 64 h, 768 + 64 h, 1536 + 64 h of that matrix; read at (e, n) it is
  ∑ m, v m e * prob h n m, the specification's attn h n e with each product commuted.
* The twelve blocks tile the merged 768 x 512 buffer, block h at rows 64 h, so the buffer read back at (c, n)
  is attn (c / 64) n (c % 64).
* The final projection plus bias of that buffer is the specification's out n d, term for term.
-/

set_option maxRecDepth 16384

noncomputable section

namespace Cert.KernelIdeal.KValue

open Cert.KernelIdeal Cert.KernelIdeal.Gen Cert.KernelIdeal.KMath Cert.KernelIdeal.KBody Cert.Attn
  Idealize.ShloMosaic Idealize.ShloMosaic.ValueIdx Idealize.ShloMosaic.Tactic

variable (x0 : Vec Ideal S1x1x512x768 .bf16) (x1 : Vec Ideal S2304x768 .bf16) (x2 : Vec Ideal S768x768 .bf16)
  (x3 : Vec Ideal S768 .f32)

/-- The slab and the weights as functions of their coordinates. -/
abbrev xs : Fin 512 → Fin 768 → EReal := fun n c => x0 (ix4 (0 : Fin 1) (0 : Fin 1) n c)
abbrev Ws : Fin 2304 → Fin 768 → EReal := fun j c => x1 (ix2 j c)
abbrev Wps : Fin 768 → Fin 768 → EReal := fun d c => x2 (ix2 d c)
abbrev bs : Fin 768 → EReal := fun d => x3 (ix1 d)

/-- The body's fused projection at (row j, token n) is the specification's projection of token n, row j:
    the two factors of every product swapped. -/
theorem qT_apply (j : Fin 2304) (n : Fin 512) :
    k0_pay1 (F := Ideal) x0 x1 (ix2 j n) = proj (xs x0) (Ws x1) n j := by
  rw [proj_apply]
  unfold proj
  exact Finset.sum_congr rfl fun c _ => mul_comm _ _

/-- A 64-row slice of the fused projection starting at row off 0, read at (e, n), is row off 0 + e. -/
theorem slice_apply (qT : FVec Ideal S2304x512 .f32) (off : Fin 2 → ℕ) (hs : S2304x512.Slices off S64x512)
    (r : Fin 2304) (e : Fin 64) (n : Fin 512) (h0 : r.val = off 0 + e.val) (h1 : off 1 = 0) :
    extractStridedSlice S64x512 off qT hs (ix2 e n) = qT (ix2 r n) :=
  extractStridedSlice_apply off qT hs (ix2 e n) (ix2 r n) (fun a => match a with
    | ⟨0, _⟩ => h0
    | ⟨1, _⟩ => by show n.val = off 1 + n.val; omega)

/-- Head h's chain on its three slices, at lane e and token n, is the specification's attention output:
    scores, row maximum, exponentials, denominator and weights are the specification's own terms, and the last
    contraction is ∑ m, v m e * prob h n m against the specification's ∑ m, prob h n m * v m e. -/
theorem head_piece (qT : FVec Ideal S2304x512 .f32) (hqT : ∀ j n, qT (ix2 j n) = proj (xs x0) (Ws x1) n j)
    (h : Fin 12) (oq ok ov : Fin 2 → ℕ) (hq : S2304x512.Slices oq S64x512) (hk : S2304x512.Slices ok S64x512)
    (hv : S2304x512.Slices ov S64x512)
    (eq0 : oq 0 = h.val * 64) (eq1 : oq 1 = 0) (ek0 : ok 0 = 768 + h.val * 64) (ek1 : ok 1 = 0)
    (ev0 : ov 0 = 1536 + h.val * 64) (ev1 : ov 1 = 0) (e : Fin 64) (n : Fin 512) :
    headCore (F := Ideal) (extractStridedSlice S64x512 oq qT hq) (extractStridedSlice S64x512 ok qT hk)
        (extractStridedSlice S64x512 ov qT hv) (ix2 e n)
      = attn (xs x0) (Ws x1) h n e := by
  have sq : ∀ (e : Fin 64) (n : Fin 512), extractStridedSlice S64x512 oq qT hq (ix2 e n) = proj (xs x0) (Ws x1) n (rowQ h e) :=
    fun e n => (slice_apply qT oq hq (rowQ h e) e n (by show h.val * 64 + e.val = oq 0 + e.val; omega) eq1).trans (hqT _ _)
  have sk : ∀ (e : Fin 64) (n : Fin 512), extractStridedSlice S64x512 ok qT hk (ix2 e n) = proj (xs x0) (Ws x1) n (rowK h e) :=
    fun e n => (slice_apply qT ok hk (rowK h e) e n (by show 768 + h.val * 64 + e.val = ok 0 + e.val; omega) ek1).trans (hqT _ _)
  have sv : ∀ (e : Fin 64) (n : Fin 512), extractStridedSlice S64x512 ov qT hv (ix2 e n) = proj (xs x0) (Ws x1) n (rowV h e) :=
    fun e n => (slice_apply qT ov hv (rowV h e) e n (by show 1536 + h.val * 64 + e.val = ov 0 + e.val; omega) ev1).trans (hqT _ _)
  generalize extractStridedSlice S64x512 oq qT hq = Q at sq ⊢
  generalize extractStridedSlice S64x512 ok qT hk = K at sk ⊢
  generalize extractStridedSlice S64x512 ov qT hv = V at sv ⊢
  have hlg : ∀ n m : Fin 512, lg Q K n m = logit (xs x0) (Ws x1) h n m := fun n m => by
    unfold lg logit
    exact Finset.sum_congr rfl fun e _ => by rw [sq, sk]
  have hmx : ∀ n : Fin 512, mx Q K n = rowMax (xs x0) (Ws x1) h n := fun n => by
    unfold mx rowMax
    exact congrArg (fun f => Finset.fold max negInf f (Finset.univ : Finset (Fin 512))) (funext fun m => hlg n m)
  rw [headCore_apply]
  unfold attn prob denom expo
  refine Finset.sum_congr rfl fun m _ => ?_
  rw [sv, hlg, hmx, mul_comm]
  exact congrArg (fun s => Ideal.div (Ideal.exp (logit (xs x0) (Ws x1) h n m - rowMax (xs x0) (Ws x1) h n)) s * proj (xs x0) (Ws x1) m (rowV h e))
    (Finset.sum_congr rfl fun m' _ => by rw [hlg])

/-- The merged buffer as one function of its index: entry (c, n) belongs to head c / 64, lane c % 64. -/
def mergedG : S768x512.Idx → EReal := fun y =>
  attn (xs x0) (Ws x1) (headOf ⟨(y 0).val, idx2_lt0 y⟩) ⟨(y 1).val, idx2_lt1 y⟩ (laneOf ⟨(y 0).val, idx2_lt0 y⟩)

/-- Head h's stored block is the block of mergedG at rows 64 h. -/
theorem piece_ok (h : Fin 12) (off : Fin 2 → ℕ) (inb : ∀ a, off a + S64x512.size a ≤ S768x512.size a)
    (o0 : off 0 = h.val * 64) (o1 : off 1 = 0)
    (oq ok ov : Fin 2 → ℕ) (hq : S2304x512.Slices oq S64x512) (hk : S2304x512.Slices ok S64x512)
    (hv : S2304x512.Slices ov S64x512)
    (eq0 : oq 0 = h.val * 64) (eq1 : oq 1 = 0) (ek0 : ok 0 = 768 + h.val * 64) (ek1 : ok 1 = 0)
    (ev0 : ov 0 = 1536 + h.val * 64) (ev1 : ov 1 = 0)
    (x : (Rect.unit (s := S768x512) off ![64, 512] inb).shape.Idx) :
    headCore (F := Ideal) (extractStridedSlice S64x512 oq (k0_pay1 x0 x1) hq) (extractStridedSlice S64x512 ok (k0_pay1 x0 x1) hk)
        (extractStridedSlice S64x512 ov (k0_pay1 x0 x1) hv) x
      = mergedG x0 x1 ((Rect.unit (s := S768x512) off ![64, 512] inb).emb x) := by
  obtain ⟨e, n, rfl⟩ : ∃ (e : Fin 64) (n : Fin 512), x = ix2 e n := ⟨x 0, x 1, eq_ix2 x⟩
  refine (head_piece x0 x1 (k0_pay1 x0 x1) (qT_apply x0 x1) h oq ok ov hq hk hv eq0 eq1 ek0 ek1 ev0 ev1 e n).trans ?_
  have c0 : (((Rect.unit (s := S768x512) off ![64, 512] inb).emb (ix2 e n)) 0).val = h.val * 64 + e.val := by
    show off 0 + 1 * e.val = _; omega
  have c1 : (((Rect.unit (s := S768x512) off ![64, 512] inb).emb (ix2 e n)) 1).val = n.val := by
    show off 1 + 1 * n.val = _; omega
  have hh : headOf ⟨_, idx2_lt0 ((Rect.unit (s := S768x512) off ![64, 512] inb).emb (ix2 e n))⟩ = h :=
    Fin.ext (by show (((Rect.unit (s := S768x512) off ![64, 512] inb).emb (ix2 e n)) 0).val / 64 = h.val; rw [c0]; omega)
  have hl : laneOf ⟨_, idx2_lt0 ((Rect.unit (s := S768x512) off ![64, 512] inb).emb (ix2 e n))⟩ = e :=
    Fin.ext (by show (((Rect.unit (s := S768x512) off ![64, 512] inb).emb (ix2 e n)) 0).val % 64 = e.val; rw [c0]; omega)
  have hn : (⟨_, idx2_lt1 ((Rect.unit (s := S768x512) off ![64, 512] inb).emb (ix2 e n))⟩ : Fin 512) = n := Fin.ext c1
  unfold mergedG
  rw [hh, hl, hn]

/-- So the merged buffer read back is mergedG everywhere: the twelve blocks tile it. -/
theorem stored_canon (y : S768x512.Idx) : View.canon (stored x0 x1) y = mergedG x0 x1 y := by
  refine View.canon_apply_of_pieces (mergedG x0 x1) (stored x0 x1) ?_ y
    (View.cover_of_tiledL (stored x0 x1) ![64, 512] (by sl_kernel_rfl) y)
  intro p hp
  simp only [stored, List.mem_cons, List.not_mem_nil, or_false] at hp
  rcases hp with rfl | rfl | rfl | rfl | rfl | rfl | rfl | rfl | rfl | rfl | rfl | rfl
  · exact fun x => (congrFun (head11_eq (k0_pay1 x0 x1)) x).trans (piece_ok x0 x1 (11 : Fin 12) ![704, 0] inb_S768x512_S64x512_704_0 rfl rfl
      ![704, 0] ![1472, 0] ![2240, 0] slices_S2304x512_o704_0_S64x512 slices_S2304x512_o1472_0_S64x512 slices_S2304x512_o2240_0_S64x512
      rfl rfl rfl rfl rfl rfl x)
  · exact fun x => (congrFun (head10_eq (k0_pay1 x0 x1)) x).trans (piece_ok x0 x1 (10 : Fin 12) ![640, 0] inb_S768x512_S64x512_640_0 rfl rfl
      ![640, 0] ![1408, 0] ![2176, 0] slices_S2304x512_o640_0_S64x512 slices_S2304x512_o1408_0_S64x512 slices_S2304x512_o2176_0_S64x512
      rfl rfl rfl rfl rfl rfl x)
  · exact fun x => (congrFun (head9_eq (k0_pay1 x0 x1)) x).trans (piece_ok x0 x1 (9 : Fin 12) ![576, 0] inb_S768x512_S64x512_576_0 rfl rfl
      ![576, 0] ![1344, 0] ![2112, 0] slices_S2304x512_o576_0_S64x512 slices_S2304x512_o1344_0_S64x512 slices_S2304x512_o2112_0_S64x512
      rfl rfl rfl rfl rfl rfl x)
  · exact fun x => (congrFun (head8_eq (k0_pay1 x0 x1)) x).trans (piece_ok x0 x1 (8 : Fin 12) ![512, 0] inb_S768x512_S64x512_512_0 rfl rfl
      ![512, 0] ![1280, 0] ![2048, 0] slices_S2304x512_o512_0_S64x512 slices_S2304x512_o1280_0_S64x512 slices_S2304x512_o2048_0_S64x512
      rfl rfl rfl rfl rfl rfl x)
  · exact fun x => (congrFun (head7_eq (k0_pay1 x0 x1)) x).trans (piece_ok x0 x1 (7 : Fin 12) ![448, 0] inb_S768x512_S64x512_448_0 rfl rfl
      ![448, 0] ![1216, 0] ![1984, 0] slices_S2304x512_o448_0_S64x512 slices_S2304x512_o1216_0_S64x512 slices_S2304x512_o1984_0_S64x512
      rfl rfl rfl rfl rfl rfl x)
  · exact fun x => (congrFun (head6_eq (k0_pay1 x0 x1)) x).trans (piece_ok x0 x1 (6 : Fin 12) ![384, 0] inb_S768x512_S64x512_384_0 rfl rfl
      ![384, 0] ![1152, 0] ![1920, 0] slices_S2304x512_o384_0_S64x512 slices_S2304x512_o1152_0_S64x512 slices_S2304x512_o1920_0_S64x512
      rfl rfl rfl rfl rfl rfl x)
  · exact fun x => (congrFun (head5_eq (k0_pay1 x0 x1)) x).trans (piece_ok x0 x1 (5 : Fin 12) ![320, 0] inb_S768x512_S64x512_320_0 rfl rfl
      ![320, 0] ![1088, 0] ![1856, 0] slices_S2304x512_o320_0_S64x512 slices_S2304x512_o1088_0_S64x512 slices_S2304x512_o1856_0_S64x512
      rfl rfl rfl rfl rfl rfl x)
  · exact fun x => (congrFun (head4_eq (k0_pay1 x0 x1)) x).trans (piece_ok x0 x1 (4 : Fin 12) ![256, 0] inb_S768x512_S64x512_256_0 rfl rfl
      ![256, 0] ![1024, 0] ![1792, 0] slices_S2304x512_o256_0_S64x512 slices_S2304x512_o1024_0_S64x512 slices_S2304x512_o1792_0_S64x512
      rfl rfl rfl rfl rfl rfl x)
  · exact fun x => (congrFun (head3_eq (k0_pay1 x0 x1)) x).trans (piece_ok x0 x1 (3 : Fin 12) ![192, 0] inb_S768x512_S64x512_192_0 rfl rfl
      ![192, 0] ![960, 0] ![1728, 0] slices_S2304x512_o192_0_S64x512 slices_S2304x512_o960_0_S64x512 slices_S2304x512_o1728_0_S64x512
      rfl rfl rfl rfl rfl rfl x)
  · exact fun x => (congrFun (head2_eq (k0_pay1 x0 x1)) x).trans (piece_ok x0 x1 (2 : Fin 12) ![128, 0] inb_S768x512_S64x512_128_0 rfl rfl
      ![128, 0] ![896, 0] ![1664, 0] slices_S2304x512_o128_0_S64x512 slices_S2304x512_o896_0_S64x512 slices_S2304x512_o1664_0_S64x512
      rfl rfl rfl rfl rfl rfl x)
  · exact fun x => (congrFun (head1_eq x0 x1) x).trans (piece_ok x0 x1 (1 : Fin 12) ![64, 0] inb_S768x512_S64x512_64_0 rfl rfl
      ![64, 0] ![832, 0] ![1600, 0] slices_S2304x512_o64_0_S64x512 slices_S2304x512_o832_0_S64x512 slices_S2304x512_o1600_0_S64x512
      rfl rfl rfl rfl rfl rfl x)
  · exact fun x => (congrFun (head0_eq x0 x1) x).trans (piece_ok x0 x1 (0 : Fin 12) ![0, 0] inb_S768x512_S64x512_0_0 rfl rfl
      ![0, 0] ![768, 0] ![1536, 0] slices_S2304x512_o0_0_S64x512 slices_S2304x512_o768_0_S64x512 slices_S2304x512_o1536_0_S64x512
      rfl rfl rfl rfl rfl rfl x)

/-- The output block a grid point leaves, read at token n and output channel d, is the specification's result for
    the point's slab. -/
theorem block_value (c : Dev nD) (i : grid0.Coords) (arg2 : Memref sig .tc .vmem S1x1x512x768 .bf16) (harg2 : arg2.IsWhole)
    (arg3 : Memref sig .tc .vmem S2304x768 .bf16) (harg3 : arg3.IsWhole) (arg4 : Memref sig .tc .vmem S768x768 .bf16) (harg4 : arg4.IsWhole)
    (arg5 : Memref sig .tc .vmem S768 .f32) (harg5 : arg5.IsWhole) (arg6 : Memref sig .tc .vmem S1x1x512x768 .f32) (harg6 : arg6.IsWhole)
    (arg7 : Memref sig .tc .vmem S768x512 .bf16) (harg7 : arg7.IsWhole) (n : Fin 512) (d : Fin 768) :
    out0_A_4 (F := Ideal) c i arg2 harg2 arg3 harg3 arg4 harg4 arg5 harg5 arg6 harg6 arg7 harg7 x0 x1 x2 x3
        (ix4 (0 : Fin 1) (0 : Fin 1) n d)
      = out (xs x0) (Ws x1) (Wps x2) (bs x3) n d := by
  rw [out_A_eq, final_apply]
  unfold out
  refine congrArg (· + x3 (ix1 d)) (Finset.sum_congr rfl fun cc _ => ?_)
  refine congrArg (· * x2 (ix2 d cc)) ?_
  have hidx : (Rect.unit (s := S768x512) ![0, 0] ![768, 512] inb_S768x512_S768x512_0_0).idx (ix2 cc n) = ix2 cc n :=
    funext fun a => Fin.ext (by
      match a with
      | ⟨0, _⟩ => show 0 + 1 * cc.val = cc.val; omega
      | ⟨1, _⟩ => show 0 + 1 * n.val = n.val; omega)
  show View.canon (stored x0 x1) ((Rect.unit (s := S768x512) ![0, 0] ![768, 512] inb_S768x512_S768x512_0_0).idx (ix2 cc n)) = _
  rw [hidx, stored_canon]
  rfl

end Cert.KernelIdeal.KValue

end
-- ==== Proof.KArray.lean ====
import proofs.«105651_j35553739276448_2_alg».proof.Proof.Gen.KernelIdeal.Value
import proofs.«105651_j35553739276448_2_alg».proof.Proof.KValue
import proofs.«105651_j35553739276448_2_alg».proof.Proof.Spec
import Idealize.ShloMosaic.Lib.Pipeline.Value
import Idealize.ShloMosaic.Lib.StableHlo.Run
import Idealize.ShloMosaic.Lib.ValueIdx
import Idealize.ShloMosaic.Lib.Tactic

/-!
# The kernel's result array

The grid has 8 x 4 points; point (b, p) reads slab (b, p) of the converted input (and the whole weight arrays)
and writes slab (b, p) of the result.  What it writes is the specification's result for that slab, so the result
array after the run is the specification's G of the arrays the region finds.  Those are the arguments converted to
a narrower float format by three operations of the host program before the launch; over the extended reals a
change of float format is the identity, so they are the arguments themselves.
-/

set_option maxRecDepth 16384

noncomputable section

namespace Cert.KernelIdeal.KArray

open Cert.KernelIdeal Cert.KernelIdeal.Gen Cert.KernelIdeal.KValue Cert.Attn
  Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- The specification's result of the arrays as the region finds them. -/
def GV (c : Dev nD) : S8x4x512x768.Idx → EReal :=
  G (V m c main_v0) (V m c main_v1) (V m c main_v2) (V m c main_arg3)

/-- The printed index maps, decided over the 32 grid points: the input slab moves with the output slab, whose block
    index is (b, p, 0, 0) with b < 8 and p < 4; the weights' blocks never move. -/
theorem idx_facts : ∀ t : Fin cfg0.N,
    win0_0.index t (0 : Fin 4) = win0_4.index t (0 : Fin 4) ∧ win0_0.index t (1 : Fin 4) = win0_4.index t (1 : Fin 4)
    ∧ win0_0.index t (2 : Fin 4) = 0 ∧ win0_0.index t (3 : Fin 4) = 0
    ∧ win0_4.index t (2 : Fin 4) = 0 ∧ win0_4.index t (3 : Fin 4) = 0
    ∧ win0_4.index t (0 : Fin 4) < 8 ∧ win0_4.index t (1 : Fin 4) < 4
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0 :=
  (by decide +kernel : ∀ t : Fin grid0.N, _)

/-- Every slab is some point's. -/
theorem idx_onto : ∀ (q0 : Fin 8) (q1 : Fin 4), ∃ t : Fin cfg0.N, win0_4.index t (0 : Fin 4) = q0.val ∧ win0_4.index t (1 : Fin 4) = q1.val :=
  (by decide +kernel : ∀ (q0 : Fin 8) (q1 : Fin 4), ∃ t : Fin grid0.N, win0_4.index t (0 : Fin 4) = q0.val ∧ win0_4.index t (1 : Fin 4) = q1.val)

/-- What point t writes back is its slab of GV. -/
theorem flushed_eq (c : Dev nD) (t : Fin cfg0.N) :
    (dats m 0 c).flushed 4 t = ((cfg0.win 4).blk t).view.read (Elt Ideal) (GV m c) := by
  rw [Cert.KernelIdeal.Value.flushed4_A]
  obtain ⟨e00, e01, e02, e03, e42, e43, b8, p4, e10, e11, e20, e21, e30⟩ := idx_facts t
  funext j
  obtain ⟨u0, u1, n, d, rfl⟩ : ∃ (u0 u1 : Fin 1) (n : Fin 512) (d : Fin 768), j = ix4 u0 u1 n d :=
    ⟨j 0, j 1, j 2, j 3, eq_ix4 j⟩
  obtain rfl : u0 = 0 := Subsingleton.elim _ _
  obtain rfl : u1 = 0 := Subsingleton.elim _ _
  show out0_A_4 (F := Ideal) c (grid0.coords t) (ms0_0 t) (hs0_0 t) (ms0_1 t) (hs0_1 t) (ms0_2 t) (hs0_2 t) (ms0_3 t) (hs0_3 t)
      (ms0_4 t) (hs0_4 t) scM0_0 (Memref.isWhole_whole _) (iblk m c 0 t) (iblk m c 1 t) (iblk m c 2 t) (iblk m c 3 t)
      (ix4 (0 : Fin 1) (0 : Fin 1) n d)
    = GV m c (((cfg0.win 4).blk t).view.emb (ix4 (0 : Fin 1) (0 : Fin 1) n d))
  refine (block_value (iblk m c 0 t) (iblk m c 1 t) (iblk m c 2 t) (iblk m c 3 t) c (grid0.coords t) (ms0_0 t) (hs0_0 t)
    (ms0_1 t) (hs0_1 t) (ms0_2 t) (hs0_2 t) (ms0_3 t) (hs0_3 t) (ms0_4 t) (hs0_4 t) scM0_0 (Memref.isWhole_whole _) n d).trans ?_
  unfold GV G
  have hx : xs (iblk m c 0 t) = fun (n : Fin 512) (cc : Fin 768) => V m c main_v0
      (ix4 ((((cfg0.win 4).blk t).view.emb (ix4 (0 : Fin 1) (0 : Fin 1) n d)) 0) ((((cfg0.win 4).blk t).view.emb (ix4 (0 : Fin 1) (0 : Fin 1) n d)) 1) n cc) := by
    funext n' cc
    show V m c main_v0 (((cfg0.win 0).blk t).view.emb (ix4 (0 : Fin 1) (0 : Fin 1) n' cc)) = _
    refine congrArg (V m c main_v0) (funext fun a => Fin.ext ?_)
    match a with
    | ⟨0, _⟩ => show win0_0.index t (0 : Fin 4) * 1 + 1 * 0 = win0_4.index t (0 : Fin 4) * 1 + 1 * 0; omega
    | ⟨1, _⟩ => show win0_0.index t (1 : Fin 4) * 1 + 1 * 0 = win0_4.index t (1 : Fin 4) * 1 + 1 * 0; omega
    | ⟨2, _⟩ => show win0_0.index t (2 : Fin 4) * 512 + 1 * n'.val = n'.val; omega
    | ⟨3, _⟩ => show win0_0.index t (3 : Fin 4) * 768 + 1 * cc.val = cc.val; omega
  have hW : Ws (iblk m c 1 t) = fun (j : Fin 2304) (cc : Fin 768) => V m c main_v1 (ix2 j cc) := by
    funext j cc
    show V m c main_v1 (((cfg0.win 1).blk t).view.emb (ix2 j cc)) = _
    refine congrArg (V m c main_v1) (funext fun a => Fin.ext ?_)
    match a with
    | ⟨0, _⟩ => show win0_1.index t (0 : Fin 2) * 2304 + 1 * j.val = j.val; omega
    | ⟨1, _⟩ => show win0_1.index t (1 : Fin 2) * 768 + 1 * cc.val = cc.val; omega
  have hWp : Wps (iblk m c 2 t) = fun (d' : Fin 768) (cc : Fin 768) => V m c main_v2 (ix2 d' cc) := by
    funext d' cc
    show V m c main_v2 (((cfg0.win 2).blk t).view.emb (ix2 d' cc)) = _
    refine congrArg (V m c main_v2) (funext fun a => Fin.ext ?_)
    match a with
    | ⟨0, _⟩ => show win0_2.index t (0 : Fin 2) * 768 + 1 * d'.val = d'.val; omega
    | ⟨1, _⟩ => show win0_2.index t (1 : Fin 2) * 768 + 1 * cc.val = cc.val; omega
  have hb : bs (iblk m c 3 t) = fun (d' : Fin 768) => V m c main_arg3 (ix1 d') := by
    funext d'
    show V m c main_arg3 (((cfg0.win 3).blk t).view.emb (ix1 d')) = _
    refine congrArg (V m c main_arg3) (funext fun a => Fin.ext ?_)
    match a with
    | ⟨0, _⟩ => show win0_3.index t (0 : Fin 1) * 768 + 1 * d'.val = d'.val; omega
  have hn : ((((cfg0.win 4).blk t).view.emb (ix4 (0 : Fin 1) (0 : Fin 1) n d)) 2 : Fin 512) = n :=
    Fin.ext (by show win0_4.index t (2 : Fin 4) * 512 + 1 * n.val = n.val; omega)
  have hd : ((((cfg0.win 4).blk t).view.emb (ix4 (0 : Fin 1) (0 : Fin 1) n d)) 3 : Fin 768) = d :=
    Fin.ext (by show win0_4.index t (3 : Fin 4) * 768 + 1 * d.val = d.val; omega)
  rw [hx, hW, hWp, hb]
  dsimp only
  rw [hn, hd]
  rfl

/-- An index of the result array is in point t's block iff each coordinate is in the block's range. -/
theorem mem_blk (t : Fin cfg0.N) (i : S8x4x512x768.Idx) :
    i ∈ ((cfg0.win 4).blk t).view.set ↔ ∀ a : Fin 4, win0_4.index t a * S1x1x512x768.size a ≤ (i a).val ∧ (i a).val < win0_4.index t a * S1x1x512x768.size a + S1x1x512x768.size a := by
  show i ∈ ((View.whole main_v3).slice (win0_4.rect t)).set ↔ _
  rw [View.set_slice_whole, Rect.mem_set_unit]
  exact Iff.rfl

/-- The result array after the run is GV: the 32 slabs cover it. -/
theorem final (c : Dev nD) : (dats m 0 c).arrAt 4 cfg0.N = GV m c :=
  (dats m 0 c).arrAt_eq_of_cover 4 (GV m c) (fun t _ => flushed_eq m c t) fun i => by
    have h0 : (i 0).val < 8 := (i 0).isLt
    have h1 : (i 1).val < 4 := (i 1).isLt
    have h2 : (i 2).val < 512 := (i 2).isLt
    have h3 : (i 3).val < 768 := (i 3).isLt
    obtain ⟨t, q0, q1⟩ := idx_onto ⟨(i 0).val, h0⟩ ⟨(i 1).val, h1⟩
    obtain ⟨e00, e01, e02, e03, e42, e43, b8, p4, e10, e11, e20, e21, e30⟩ := idx_facts t
    refine ⟨t, flush0_4 t, ?_⟩
    rw [mem_blk]
    intro a
    match a with
    | ⟨0, _⟩ => show win0_4.index t (0 : Fin 4) * 1 ≤ (i 0).val ∧ (i 0).val < win0_4.index t (0 : Fin 4) * 1 + 1; dsimp only at q0; omega
    | ⟨1, _⟩ => show win0_4.index t (1 : Fin 4) * 1 ≤ (i 1).val ∧ (i 1).val < win0_4.index t (1 : Fin 4) * 1 + 1; dsimp only at q1; omega
    | ⟨2, _⟩ => show win0_4.index t (2 : Fin 4) * 512 ≤ (i 2).val ∧ (i 2).val < win0_4.index t (2 : Fin 4) * 512 + 512; omega
    | ⟨3, _⟩ => show win0_4.index t (3 : Fin 4) * 768 ≤ (i 3).val ∧ (i 3).val < win0_4.index t (3 : Fin 4) * 768 + 768; omega

/-- The converted input the region finds is, over the extended reals, the argument itself. -/
theorem V_v0 (c : Dev nD) : (V m c main_v0 : S8x4x512x768.Idx → EReal) = m ((c : Thread nD τ).loc main_arg0) := by
  have e : (V m c main_v0 : S8x4x512x768.Idx → EReal)
      = truncf (F := Ideal) .bf16 (m ((c : Thread nD τ).loc main_arg0)) bitsLt_bf16_f32 := by
    dsimp only [V, hostOps0]; after_results
  rw [e]; rfl

theorem V_v1 (c : Dev nD) : (V m c main_v1 : S2304x768.Idx → EReal) = m ((c : Thread nD τ).loc main_arg1) := by
  have e : (V m c main_v1 : S2304x768.Idx → EReal)
      = truncf (F := Ideal) .bf16 (m ((c : Thread nD τ).loc main_arg1)) bitsLt_bf16_f32 := by
    dsimp only [V, hostOps0]; after_results
  rw [e]; rfl

theorem V_v2 (c : Dev nD) : (V m c main_v2 : S768x768.Idx → EReal) = m ((c : Thread nD τ).loc main_arg2) := by
  have e : (V m c main_v2 : S768x768.Idx → EReal)
      = truncf (F := Ideal) .bf16 (m ((c : Thread nD τ).loc main_arg2)) bitsLt_bf16_f32 := by
    dsimp only [V, hostOps0]; after_results
  rw [e]; rfl

/-- So GV is the specification's G of the four arguments. -/
theorem GV_eq (c : Dev nD) : GV m c = G (m ((c : Thread nD τ).loc main_arg0)) (m ((c : Thread nD τ).loc main_arg1))
    (m ((c : Thread nD τ).loc main_arg2)) (m ((c : Thread nD τ).loc main_arg3)) := by
  unfold GV
  rw [V_v0, V_v1, V_v2, V_main_arg3]

/-- The kernel's run, read: the result array is the specification's G of the arguments, which end unchanged. -/
theorem run : θ_run defs (onTc (τ := τ) (main (F := Ideal))) ⟨m, fun _ => 0, ρ⟩ fun r => ∀ c : Dev nD,
      r.2.mem ((c : Thread nD τ).loc main_v3) = G (m ((c : Thread nD τ).loc main_arg0)) (m ((c : Thread nD τ).loc main_arg1))
        (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final m c).trans (GV_eq m c)), (h c).2⟩)
    (Cert.KernelIdeal.Value.run_blocks m ρ)

end Cert.KernelIdeal.KArray

end
-- ==== Proof.RefValue.lean ====
import proofs.«105651_j35553739276448_2_alg».proof.Proof.Gen.ReferenceIdeal.Read
import proofs.«105651_j35553739276448_2_alg».proof.Proof.Spec
import Idealize.ShloMosaic.Lib.Pipeline.Value
import Idealize.ShloMosaic.Lib.ValueIdx
import Idealize.ShloMosaic.Lib.ValueIdxRank6
import Idealize.ShloMosaic.PureOps.Ideal.Laws
import Idealize.ShloMosaic.PureOps.Reduce

/-!
# The reference program's result is the windowed attention of the specification

The reference computes, for every slab (b, p) of the input, the fused projection of the slab's tokens,
splits it into the queries, keys and values of the twelve heads by a reshape, a transpose and three
slices, forms the scaled scores, takes the softmax over the keys, applies the weights to the values,
merges the heads back along the channel axis and applies the output projection and the bias.  Each
stage below is read at one index, named by its coordinates, and identified with the corresponding
function of the specification on the slab; only index bookkeeping is needed, since the specification
multiplies in the reference's own order.
-/

noncomputable section

namespace Cert.ReferenceIdeal.RefValue

open Cert.ReferenceIdeal Cert.ReferenceIdeal.Gen Cert.ReferenceIdeal.Read Idealize.ShloMosaic Idealize.ShloMosaic.ValueIdx
open Cert.Attn

section stages
variable (X : (⟨S8x4x512x768, .f32⟩ : BufTy).Contents (Elt Ideal)) (W : (⟨S2304x768, .f32⟩ : BufTy).Contents (Elt Ideal))

/-- Slab (b, p) of the input as a matrix of tokens by channels. -/
abbrev slab (b : Fin 8) (p : Fin 4) : Fin 512 → Fin 768 → EReal := fun n c => X (ix4 b p n c)
/-- The fused projection matrix as a matrix of rows by channels. -/
abbrev wmat : Fin 2304 → Fin 768 → EReal := fun j c => W (ix2 j c)

/-! ## The fused projection and its split into queries, keys and values -/

/-- The first contraction at (b, p, n, j) is the fused projection of token n of slab (b, p), row j. -/
theorem v0_at (b : Fin 8) (p : Fin 4) (n : Fin 512) (j : Fin 2304) :
    val_main_v0 (F := Ideal) X W (ix4 b p n j) = proj (slab X b p) (wmat W) n j := by
  rw [val_main_v0_apply]
  unfold proj
  refine Finset.sum_congr rfl fun c _ => ?_
  have el : lidx_main_v0 (ix4 b p n j) c = ix4 b p n c := funext fun a => by
    match a with | ⟨0, _⟩ => rfl | ⟨1, _⟩ => rfl | ⟨2, _⟩ => rfl | ⟨3, _⟩ => rfl
  have er : ridx_main_v0 (ix4 b p n j) c = ix2 j c := funext fun a => by
    match a with | ⟨0, _⟩ => rfl | ⟨1, _⟩ => rfl
  rw [el, er]

/-- The reshape that splits the 2304 rows into (which of q/k/v, head, lane): row 768 s + 64 h + e. -/
theorem v1_at (b : Fin 8) (p : Fin 4) (n : Fin 512) (s : Fin 3) (h : Fin 12) (e : Fin 64) (j : Fin 2304)
    (hj : j.val = 768 * s.val + 64 * h.val + e.val) :
    val_main_v1 (F := Ideal) X W (ix6 b p n s h e) = val_main_v0 (F := Ideal) X W (ix4 b p n j) := by
  unfold val_main_v1
  generalize val_main_v0 (F := Ideal) X W = y
  refine shapeCast_apply y shapeCasts_S8x4x512x2304_S8x4x512x3x12x64 (ix6 b p n s h e) (ix4 b p n j) ?_
  rw [Shape.rowMajor_val_four, Shape.rowMajor_val_six]
  show ((b.val * 4 + p.val) * 512 + n.val) * 2304 + j.val
    = ((((b.val * 4 + p.val) * 512 + n.val) * 3 + s.val) * 12 + h.val) * 64 + e.val
  omega

/-- After the transpose the axes are (which, b, p, head, token, lane). -/
theorem v2_at (b : Fin 8) (p : Fin 4) (n : Fin 512) (s : Fin 3) (h : Fin 12) (e : Fin 64) :
    val_main_v2 (F := Ideal) X W (ix6 s b p h n e) = val_main_v1 (F := Ideal) X W (ix6 b p n s h e) := by
  rw [val_main_v2_apply]
  refine congrArg _ (funext fun a => ?_)
  match a with | ⟨0, _⟩ => rfl | ⟨1, _⟩ => rfl | ⟨2, _⟩ => rfl | ⟨3, _⟩ => rfl | ⟨4, _⟩ => rfl | ⟨5, _⟩ => rfl

/-- Dropping the unit leading axis of a slice. -/
theorem drop_unit_axis (y : (⟨S1x8x4x12x512x64, .f32⟩ : BufTy).Contents (Elt Ideal))
    (b : Fin 8) (p : Fin 4) (h : Fin 12) (n : Fin 512) (e : Fin 64) :
    shapeCast S8x4x12x512x64 y shapeCasts_S1x8x4x12x512x64_S8x4x12x512x64 (ix5 b p h n e)
      = y (ix6 (0 : Fin 1) b p h n e) := by
  refine shapeCast_apply y shapeCasts_S1x8x4x12x512x64_S8x4x12x512x64 (ix5 b p h n e) (ix6 (0 : Fin 1) b p h n e) ?_
  rw [Shape.rowMajor_val_six, Shape.rowMajor_val_five]
  show (((((0 : Fin 1).val * 8 + b.val) * 4 + p.val) * 12 + h.val) * 512 + n.val) * 64 + e.val
    = (((b.val * 4 + p.val) * 12 + h.val) * 512 + n.val) * 64 + e.val
  simp

/-- The queries: lane e of head h of token n is row rowQ h e of the fused projection. -/
theorem q_at (b : Fin 8) (p : Fin 4) (h : Fin 12) (n : Fin 512) (e : Fin 64) :
    val_main_v4 (F := Ideal) X W (ix5 b p h n e) = proj (slab X b p) (wmat W) n (rowQ h e) := by
  unfold val_main_v4
  rw [drop_unit_axis, val_main_v3_apply]
  have ei : idx_main_v3 (ix6 (0 : Fin 1) b p h n e) = ix6 (0 : Fin 3) b p h n e := funext fun a => by
    match a with | ⟨0, _⟩ => rfl | ⟨1, _⟩ => rfl | ⟨2, _⟩ => rfl | ⟨3, _⟩ => rfl | ⟨4, _⟩ => rfl | ⟨5, _⟩ => rfl
  rw [ei, v2_at, v1_at X W b p n 0 h e (rowQ h e) (by show h.val * 64 + e.val = 768 * 0 + 64 * h.val + e.val; omega), v0_at]

/-- The keys: row rowK h e. -/
theorem k_at (b : Fin 8) (p : Fin 4) (h : Fin 12) (n : Fin 512) (e : Fin 64) :
    val_main_v6 (F := Ideal) X W (ix5 b p h n e) = proj (slab X b p) (wmat W) n (rowK h e) := by
  unfold val_main_v6
  rw [drop_unit_axis, val_main_v5_apply]
  have ei : idx_main_v5 (ix6 (0 : Fin 1) b p h n e) = ix6 (1 : Fin 3) b p h n e := funext fun a => by
    match a with | ⟨0, _⟩ => rfl | ⟨1, _⟩ => rfl | ⟨2, _⟩ => rfl | ⟨3, _⟩ => rfl | ⟨4, _⟩ => rfl | ⟨5, _⟩ => rfl
  rw [ei, v2_at, v1_at X W b p n 1 h e (rowK h e) (by show 768 + h.val * 64 + e.val = 768 * 1 + 64 * h.val + e.val; omega), v0_at]

/-- The values: row rowV h e. -/
theorem v_at (b : Fin 8) (p : Fin 4) (h : Fin 12) (n : Fin 512) (e : Fin 64) :
    val_main_v8 (F := Ideal) X W (ix5 b p h n e) = proj (slab X b p) (wmat W) n (rowV h e) := by
  unfold val_main_v8
  rw [drop_unit_axis, val_main_v7_apply]
  have ei : idx_main_v7 (ix6 (0 : Fin 1) b p h n e) = ix6 (2 : Fin 3) b p h n e := funext fun a => by
    match a with | ⟨0, _⟩ => rfl | ⟨1, _⟩ => rfl | ⟨2, _⟩ => rfl | ⟨3, _⟩ => rfl | ⟨4, _⟩ => rfl | ⟨5, _⟩ => rfl
  rw [ei, v2_at, v1_at X W b p n 2 h e (rowV h e) (by show 1536 + h.val * 64 + e.val = 768 * 2 + 64 * h.val + e.val; omega), v0_at]

/-! ## The scaled scores -/

/-- The scaled queries. -/
theorem qs_at (b : Fin 8) (p : Fin 4) (h : Fin 12) (n : Fin 512) (e : Fin 64) :
    val_main_v10 (F := Ideal) X W (ix5 b p h n e) = proj (slab X b p) (wmat W) n (rowQ h e) * scale := by
  rw [val_main_v10_apply, q_at, val_main_v9_apply, val_main_cst_apply]
  rfl

/-- The score of query token n against key token m in head h. -/
theorem logit_at (b : Fin 8) (p : Fin 4) (h : Fin 12) (n m : Fin 512) :
    val_main_v11 (F := Ideal) X W (ix5 b p h n m) = logit (slab X b p) (wmat W) h n m := by
  rw [val_main_v11_apply]
  unfold logit
  refine Finset.sum_congr rfl fun e _ => ?_
  have el : lidx_main_v11 (ix5 b p h n m) e = ix5 b p h n e := funext fun a => by
    match a with | ⟨0, _⟩ => rfl | ⟨1, _⟩ => rfl | ⟨2, _⟩ => rfl | ⟨3, _⟩ => rfl | ⟨4, _⟩ => rfl
  have er : ridx_main_v11 (ix5 b p h n m) e = ix5 b p h m e := funext fun a => by
    match a with | ⟨0, _⟩ => rfl | ⟨1, _⟩ => rfl | ⟨2, _⟩ => rfl | ⟨3, _⟩ => rfl | ⟨4, _⟩ => rfl
  rw [el, er, qs_at, k_at]

/-! ## The softmax over the keys -/

/-- Folding a maximum from -inf: -inf is the least extended real. -/
theorem max_negInf (y : EReal) : max negInf y = y := by
  unfold negInf
  simp [Ideal.ofBits, Ideal.ieee]

/-- The key axis put back into a reduced index. -/
theorem lift_ix4 (hr : S8x4x12x512x512.Reduces [4] S8x4x12x512) (b : Fin 8) (p : Fin 4) (h : Fin 12) (n : Fin 512)
    (m : Fin (S8x4x12x512x512.size 4)) :
    hr.lift (ix4 b p h n) m = ix5 b p h n (⟨m.val, m.isLt⟩ : Fin 512) := funext fun a => Fin.ext (by
  match a with | ⟨0, _⟩ => rfl | ⟨1, _⟩ => rfl | ⟨2, _⟩ => rfl | ⟨3, _⟩ => rfl | ⟨4, _⟩ => rfl)

/-- The reduction with a maximum body over the key axis is the row maximum folded from -inf. -/
theorem v12_at (b : Fin 8) (p : Fin 4) (h : Fin 12) (n : Fin 512) :
    val_main_v12 (F := Ideal) X W (ix4 b p h n) = rowMax (slab X b p) (wmat W) h n := by
  have hr : S8x4x12x512x512.Reduces [4] S8x4x12x512 := by decide
  unfold val_main_v12
  rw [Host.reduce_eq_fold_single FloatOps.maximumf _ _ reducesTo_S8x4x12x512x512_S8x4x12x512_d4 hr h_S_]
  unfold rowMax
  have hf : (val_main_v11 (F := Ideal) X W ∘ hr.lift (ix4 b p h n)) = fun m : Fin 512 => logit (slab X b p) (wmat W) h n m :=
    funext fun m => (congrArg (val_main_v11 (F := Ideal) X W) (lift_ix4 hr b p h n m)).trans (logit_at X W b p h n _)
  exact congrArg (fun f => Finset.fold max negInf f (Finset.univ : Finset (Fin 512))) hf

/-- The reference takes one more maximum with -inf, which changes nothing. -/
theorem rowMax_at (b : Fin 8) (p : Fin 4) (h : Fin 12) (n : Fin 512) :
    val_main_v14 (F := Ideal) X W (ix4 b p h n) = rowMax (slab X b p) (wmat W) h n := by
  rw [val_main_v14_apply, v12_at, val_main_v13_apply, val_main_cst_1_apply]
  exact max_negInf _

/-- The row maximum broadcast back along the key axis. -/
theorem v16_at (b : Fin 8) (p : Fin 4) (h : Fin 12) (n m : Fin 512) :
    val_main_v16 (F := Ideal) X W (ix5 b p h n m) = rowMax (slab X b p) (wmat W) h n := by
  rw [val_main_v16_apply, val_main_v15_apply]
  have ei : idx_main_v15 (idx_main_v16 (ix5 b p h n m)) = ix4 b p h n := funext fun a => by
    match a with | ⟨0, _⟩ => rfl | ⟨1, _⟩ => rfl | ⟨2, _⟩ => rfl | ⟨3, _⟩ => rfl
  rw [ei, rowMax_at]

/-- The shifted exponential. -/
theorem expo_at (b : Fin 8) (p : Fin 4) (h : Fin 12) (n m : Fin 512) :
    val_main_v18 (F := Ideal) X W (ix5 b p h n m) = expo (slab X b p) (wmat W) h n m := by
  rw [val_main_v18_apply, val_main_v17_apply, logit_at, v16_at]
  rfl

/-- The softmax denominator: the sum over the keys, from zero. -/
theorem denom_at (b : Fin 8) (p : Fin 4) (h : Fin 12) (n : Fin 512) :
    val_main_v19 (F := Ideal) X W (ix4 b p h n) = denom (slab X b p) (wmat W) h n := by
  rw [val_main_v19_apply, val_main_cst_2_apply]
  unfold denom
  have h0 : (FloatOps.ofBits (F := Ideal) .f32 0x00000000#32 : EReal) = 0 := Ideal.ofBits_zero_f32
  rw [h0, zero_add]
  refine Finset.sum_congr rfl fun m _ => ?_
  have ei : idx_main_v19 (ix4 b p h n) m = ix5 b p h n m := funext fun a => by
    match a with | ⟨0, _⟩ => rfl | ⟨1, _⟩ => rfl | ⟨2, _⟩ => rfl | ⟨3, _⟩ => rfl | ⟨4, _⟩ => rfl
  rw [ei, expo_at]

/-- The denominator broadcast back along the key axis. -/
theorem v21_at (b : Fin 8) (p : Fin 4) (h : Fin 12) (n m : Fin 512) :
    val_main_v21 (F := Ideal) X W (ix5 b p h n m) = denom (slab X b p) (wmat W) h n := by
  rw [val_main_v21_apply, val_main_v20_apply]
  have ei : idx_main_v20 (idx_main_v21 (ix5 b p h n m)) = ix4 b p h n := funext fun a => by
    match a with | ⟨0, _⟩ => rfl | ⟨1, _⟩ => rfl | ⟨2, _⟩ => rfl | ⟨3, _⟩ => rfl
  rw [ei, denom_at]

/-- The softmax weight. -/
theorem prob_at (b : Fin 8) (p : Fin 4) (h : Fin 12) (n m : Fin 512) :
    val_main_v22 (F := Ideal) X W (ix5 b p h n m) = prob (slab X b p) (wmat W) h n m := by
  rw [val_main_v22_apply, expo_at, v21_at]
  rfl

/-! ## The weighted values, the merge of the heads and the output projection -/

/-- Head h's attention output for token n, lane e. -/
theorem attn_at (b : Fin 8) (p : Fin 4) (h : Fin 12) (n : Fin 512) (e : Fin 64) :
    val_main_v23 (F := Ideal) X W (ix5 b p h n e) = attn (slab X b p) (wmat W) h n e := by
  rw [val_main_v23_apply]
  unfold attn
  refine Finset.sum_congr rfl fun m _ => ?_
  have el : lidx_main_v23 (ix5 b p h n e) m = ix5 b p h n m := funext fun a => by
    match a with | ⟨0, _⟩ => rfl | ⟨1, _⟩ => rfl | ⟨2, _⟩ => rfl | ⟨3, _⟩ => rfl | ⟨4, _⟩ => rfl
  have er : ridx_main_v23 (ix5 b p h n e) m = ix5 b p h m e := funext fun a => by
    match a with | ⟨0, _⟩ => rfl | ⟨1, _⟩ => rfl | ⟨2, _⟩ => rfl | ⟨3, _⟩ => rfl | ⟨4, _⟩ => rfl
  rw [el, er, prob_at, v_at]

/-- The heads merged back along the channel axis: channel c is lane c % 64 of head c / 64. -/
theorem merged_at (b : Fin 8) (p : Fin 4) (n : Fin 512) (c : Fin 768) :
    val_main_v25 (F := Ideal) X W (ix4 b p n c) = attn (slab X b p) (wmat W) (headOf c) n (laneOf c) := by
  rw [val_main_v25_apply, val_main_v24_apply]
  have ei : idx_main_v24 (idx_main_v25 (ix4 b p n c)) = ix5 b p (headOf c) n (laneOf c) := funext fun a => Fin.ext (by
    have hb := b.isLt; have hp := p.isLt; have hn := n.isLt; have hc := c.isLt
    match a with
    | ⟨0, _⟩ => show (((b.val * 4 + p.val) * 512 + n.val) * 768 + c.val) / 1572864 = b.val; omega
    | ⟨1, _⟩ => show (((b.val * 4 + p.val) * 512 + n.val) * 768 + c.val) / 393216 % 4 = p.val; omega
    | ⟨2, _⟩ => show (((b.val * 4 + p.val) * 512 + n.val) * 768 + c.val) / 64 % 12 = c.val / 64; omega
    | ⟨3, _⟩ => show (((b.val * 4 + p.val) * 512 + n.val) * 768 + c.val) / 768 % 512 = n.val; omega
    | ⟨4, _⟩ => show (((b.val * 4 + p.val) * 512 + n.val) * 768 + c.val) % 64 = c.val % 64; omega)
  rw [ei, attn_at]

end stages

/-- The reference's result at (b, p, n, d) is the specification's output for token n, channel d of slab (b, p). -/
theorem out_at (X : (⟨S8x4x512x768, .f32⟩ : BufTy).Contents (Elt Ideal)) (W : (⟨S2304x768, .f32⟩ : BufTy).Contents (Elt Ideal))
    (Wp : (⟨S768x768, .f32⟩ : BufTy).Contents (Elt Ideal)) (B : (⟨S768, .f32⟩ : BufTy).Contents (Elt Ideal))
    (b : Fin 8) (p : Fin 4) (n : Fin 512) (d : Fin 768) :
    val_main_v29 (F := Ideal) X W Wp B (ix4 b p n d)
      = out (slab X b p) (wmat W) (fun d c => Wp (ix2 d c)) (fun d => B (ix1 d)) n d := by
  rw [val_main_v29_apply, val_main_v26_apply, val_main_v28_apply, val_main_v27_apply]
  unfold out
  have eb : idx_main_v27 (idx_main_v28 (ix4 b p n d)) = ix1 d := funext fun a => by
    match a with | ⟨0, _⟩ => rfl
  rw [eb]
  refine congrArg (· + B (ix1 d)) (Finset.sum_congr rfl fun c _ => ?_)
  have el : lidx_main_v26 (ix4 b p n d) c = ix4 b p n c := funext fun a => by
    match a with | ⟨0, _⟩ => rfl | ⟨1, _⟩ => rfl | ⟨2, _⟩ => rfl | ⟨3, _⟩ => rfl
  have er : ridx_main_v26 (ix4 b p n d) c = ix2 d c := funext fun a => by
    match a with | ⟨0, _⟩ => rfl | ⟨1, _⟩ => rfl
  rw [el, er, merged_at]

/-- The reference program's result array is the specification's. -/
theorem ref_eq (X : (⟨S8x4x512x768, .f32⟩ : BufTy).Contents (Elt Ideal)) (W : (⟨S2304x768, .f32⟩ : BufTy).Contents (Elt Ideal))
    (Wp : (⟨S768x768, .f32⟩ : BufTy).Contents (Elt Ideal)) (B : (⟨S768, .f32⟩ : BufTy).Contents (Elt Ideal)) :
    val_main_v29 (F := Ideal) X W Wp B = Cert.Attn.G X W Wp B := by
  funext i
  exact (congrArg (val_main_v29 (F := Ideal) X W Wp B) (eq_ix4 (n0 := 8) (n1 := 4) (n2 := 512) (n3 := 768) i)).trans
    (out_at X W Wp B (i 0) (i 1) (i 2) (i 3))

end Cert.ReferenceIdeal.RefValue

end
-- ==== Proof.lean ====
/-
  A fused multi-head attention kernel against its einsum reference, over the extended reals.

  Both programs take x : 8 x 4 x 512 x 768 and the weights W : 2304 x 768, Wp : 768 x 768, bias : 768, and treat each
  of the 32 slabs (b, p) alone: project the 512 tokens to queries, keys and values (one fused product with W), run
  twelve heads of scaled softmax attention over the slab's tokens, merge the heads along the channel axis, project by
  Wp and add the bias.  The kernel does a slab per grid point, in a transposed layout, heads unrolled, each head's
  block stored into a merged buffer that the last product reads back; the reference spells the same with reshapes
  and transposes of whole arrays.  The specification (Proof/Spec.lean) writes the slab's result as one formula; the
  reference's stages are that formula term for term, and the kernel's differ from it only by the order of the two
  factors in the products of three of the four contractions and by the arrangement of indices.  Multiplication of
  extended reals is commutative and nothing is moved across a sum, so the inputs' finiteness is never used.

  * the three frames: the generated frame runs (the reference's is its generated run with the result dropped);
  * preserves: the idealization rewrote nothing;
  * algebraic: both runs end with the specification's G of the arguments (Proof/KArray.lean for the kernel,
    Proof/RefValue.lean for the reference), and the arguments agree.
-/
import proofs.«105651_j35553739276448_2_alg».proof.Defs
import proofs.«105651_j35553739276448_2_alg».proof.Proof.Gen.Kernel
import proofs.«105651_j35553739276448_2_alg».proof.Proof.Gen.Kernel.Skeleton
import proofs.«105651_j35553739276448_2_alg».proof.Proof.Gen.Kernel.Launch
import proofs.«105651_j35553739276448_2_alg».proof.Proof.Gen.Kernel.Points
import proofs.«105651_j35553739276448_2_alg».proof.Proof.Gen.Kernel.Frame
import proofs.«105651_j35553739276448_2_alg».proof.Proof.Gen.KernelIdeal
import proofs.«105651_j35553739276448_2_alg».proof.Proof.Gen.KernelIdeal.Skeleton
import proofs.«105651_j35553739276448_2_alg».proof.Proof.Gen.KernelIdeal.Launch
import proofs.«105651_j35553739276448_2_alg».proof.Proof.Gen.KernelIdeal.Points
import proofs.«105651_j35553739276448_2_alg».proof.Proof.Gen.KernelIdeal.Frame
import proofs.«105651_j35553739276448_2_alg».proof.Proof.Gen.ReferenceIdeal
import proofs.«105651_j35553739276448_2_alg».proof.Proof.Gen.Pre_finite_inputs
import proofs.«105651_j35553739276448_2_alg».proof.Proof.Gen.KernelIdeal.Value
import proofs.«105651_j35553739276448_2_alg».proof.Proof.Gen.ReferenceIdeal.Run
import proofs.«105651_j35553739276448_2_alg».proof.Proof.Gen.ReferenceIdeal.Read
import proofs.«105651_j35553739276448_2_alg».proof.Proof.KArray
import proofs.«105651_j35553739276448_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with the specification's G of their arguments, and the arguments agree. -/
theorem algebraic : Cert.algebraic_KernelIdeal_ReferenceIdeal := by
  intro m ρ m' ρ' _ hagree
  refine ⟨_, Cert.KernelIdeal.KArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.ReferenceIdeal.RefValue.ref_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
